-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : FVec F S32x2048 .f32) (main_arg1 : IVec S32x2048 32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_c_0 : IVec S_ 32 := constantI S_ 32 0#32
  let main_v4 : IVec S32x2048 32 := broadcastInDim S32x2048 ![] bcast_S_S32x2048 main_c_0
  let main_v5 : IVec S32x2048 1 := cmpi .eq main_arg1 main_v4
  let main_c_1 : IVec S_ 32 := constantI S_ 32 1#32
  let main_v6 : IVec S32x2048 32 := broadcastInDim S32x2048 ![] bcast_S_S32x2048 main_c_1
  let main_v7 : IVec S32x2048 1 := cmpi .eq main_arg1 main_v6
  let main_v8 : IVec S32x2048 1 := ori main_v5 main_v7
  let main_c_2 : IVec S_ 1 := constantI S_ 1 1#1
  let main_v9 : IVec S_ 1 := (fun x v => Host.reduce IntOp.andi x v reducesTo_S32x2048_S_d0_1 h_S_) main_v8 main_c_2
  let main_v10 : IVec S_ 1 := andi main_v3 main_v9
  main_v10
-- ==== Kernel.lean ====
abbrev S32x2048 : Shape := ⟨2, ![32, 2048]⟩
abbrev S32x1 : Shape := ⟨2, ![32, 1]⟩
abbrev S8x256 : Shape := ⟨2, ![8, 256]⟩
abbrev S8x1 : Shape := ⟨2, ![8, 1]⟩
abbrev S8x256x1 : Shape := ⟨3, ![8, 256, 1]⟩
abbrev S8x1x256 : Shape := ⟨3, ![8, 1, 256]⟩
abbrev S8x256x256 : Shape := ⟨3, ![8, 256, 256]⟩
abbrev S8x1x1 : Shape := ⟨3, ![8, 1, 1]⟩
abbrev S32 : Shape := ⟨1, ![32]⟩
abbrev S_ : Shape := ⟨0, ![]⟩

abbrev nBuf : Space → Nat
  | .hbm => 37
  | .vmem => 11
  | .smem => 0
  | _ => 0

abbrev bufTy : (tb : Table) → Fin (tcTables nBuf tb) → BufTy
  | .hbm, ⟨0, _⟩ => ⟨S32x2048, .f32⟩
  | .hbm, ⟨1, _⟩ => ⟨S32x2048, .i32⟩
  | .hbm, ⟨2, _⟩ => ⟨S32x2048, .f32⟩
  | .hbm, ⟨3, _⟩ => ⟨S32x1, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32x2048, .f32⟩
  | .hbm, ⟨9, _⟩ => ⟨S32x2048, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .i1⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let arg2 : BitVec 32 := BitVec.ofNat 32 (i 2).val
  let c7_i32_17 : BitVec 32 := 7#32
  let v39 : BitVec 1 := Scalar.cmpi .eq arg2 c7_i32_17
  let v40 : BitVec 1 := Scalar.andi v38 v39
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256x1_S8x1 : S8x256x1.Reduces [1] S8x1
  shapeCasts_S8x1_S8x1x1 : S8x1.ShapeCasts S8x1x1
  shapeCasts_S8x1x1_S8x1 : S8x1x1.ShapeCasts S8x1
  shapeCasts_S32x1_S32 : S32x1.ShapeCasts S32
  reducesTo_S32x2048_S32_d1 : S32x2048.ReducesTo [1] S32
  h_S_ : 0 < S_.numel
  bcast_S_S32x2048 : S_.BroadcastsInDim S32x2048 (![] : Fin 0 → Fin S32x2048.rank)
  bcast_S_S32 : S_.BroadcastsInDim S32 (![] : Fin 0 → Fin S32.rank)
  natLt_1_32 : 1 < 32
  reducesTo_S32_S_d0 : S32.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S32x2048.size a
  hwx0_0 : ∀ i : grid0.Coords, EltTy.bits .f32 = 32 ∨ (Rect.block (s := S32x2048) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S32x2048.size a
  hwx0_1 : ∀ i : grid0.Coords, EltTy.bits .f32 = 32 ∨ (Rect.block (s := S32x2048) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S32x2048.size a
  hwx0_2 : ∀ i : grid0.Coords, EltTy.bits .f32 = 32 ∨ (Rect.block (s := S32x2048) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S32x2048.size a
  hwx0_3 : ∀ i : grid0.Coords, EltTy.bits .f32 = 32 ∨ (Rect.block (s := S32x2048) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S32x1.size a
  hwx0_4 : ∀ i : grid0.Coords, EltTy.bits .f32 = 32 ∨ (Rect.block (s := S32x1) S8x1.size (cc0_transform_4 i) (hinb0_4 i)).WholeWords (EltTy.packing .f32)

variable [Facts₀]

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2048 : Shape := ⟨2, ![32, 2048]⟩
abbrev S_ : Shape := ⟨0, ![]⟩
abbrev S32x2048x1 : Shape := ⟨3, ![32, 2048, 1]⟩
abbrev S32x1x2048 : Shape := ⟨3, ![32, 1, 2048]⟩
abbrev S32x2048x2048 : Shape := ⟨3, ![32, 2048, 2048]⟩
abbrev S32 : Shape := ⟨1, ![32]⟩

abbrev nBuf : Space → Nat
  | .hbm => 63
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .i32⟩
  | .hbm, ⟨2, _⟩ => ⟨S_, .i32⟩
  | .hbm, ⟨3, _⟩ => ⟨S32x2048, .i32⟩
  | .hbm, ⟨4, _⟩ => ⟨S32x2048, .i1⟩
  | .hbm, ⟨5, _⟩ => ⟨S_, .i32⟩
  | .hbm, ⟨6, _⟩ => ⟨S32x2048, .i32⟩
  | .hbm, ⟨7, _⟩ => ⟨S32x2048, .i1⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S32x1x2048, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048x2048, .f32⟩
  | .hbm, ⟨18, _⟩ => ⟨S32x2048x2048, .f32⟩
  | .hbm, ⟨19, _⟩ => ⟨S32x2048x1, .i1⟩
  | .hbm, ⟨20, _⟩ => ⟨S32x1x2048, .i1⟩
  | .hbm, ⟨21, _⟩ => ⟨S32x2048x2048, .i1⟩
  | .hbm, ⟨22, _⟩ => ⟨S32x2048x2048, .i1⟩
  | .hbm, ⟨23, _⟩ => ⟨S32x2048x2048, .i1⟩
  | .hbm, ⟨24, _⟩ => ⟨S_, .f32⟩
  | .hbm, ⟨25, _⟩ => ⟨S_, .f32⟩
  | .hbm, ⟨26, _⟩ => ⟨S32x2048x2048, .f32⟩
  | .hbm, ⟨27, _⟩ => ⟨S32x2048x2048, .f32⟩
  | .hbm, ⟨28, _⟩ => ⟨S_, .f32⟩
  | .hbm, ⟨29, _⟩ => ⟨S32, .f32⟩
  | .hbm, ⟨30, _⟩ => ⟨S32x2048, .i32⟩
  | .hbm, ⟨31, _⟩ => ⟨S_, .i32⟩
  | .hbm, ⟨32, _⟩ => ⟨S32, .i32⟩
  | .hbm, ⟨33, _⟩ => ⟨S32, .f32⟩
  | .hbm, ⟨34, _⟩ => ⟨S32x2048, .i32⟩
  | .hbm, ⟨35, _⟩ => ⟨S_, .i32⟩
  | .hbm, ⟨36, _⟩ => ⟨S32, .i32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .i1⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S32, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_call1_v0 : Ref sig .tc := ⟨.hbm, 51, rfl⟩
abbrev main_call1_v1 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_cst_12 : Ref sig .tc := ⟨.hbm, 59, rfl⟩
abbrev main_v39 : Ref sig .tc := ⟨.hbm, 60, rfl⟩
abbrev main_cst_13 : Ref sig .tc := ⟨.hbm, 61, rfl⟩
abbrev main_v40 : Ref sig .tc := ⟨.hbm, 62, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32_d1_2 : S32x2048x2048.ReducesTo [1, 2] S32
  h_S_ : 0 < S_.numel
  natLt_1_32 : 1 < 32
  reducesTo_S32x2048_S32_d1 : S32x2048.ReducesTo [1] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.BitsBody.lean ====
import proofs.«128781_j57904749084751_1_alg».proof.Proof.Gen.Kernel.Launch
import proofs.«128781_j57904749084751_1_alg».proof.Proof.Gen.Kernel.Skeleton
import proofs.«128781_j57904749084751_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid

The grid is 4 × 8 × 8 (row block, row tile, column tile); point `t` is tile `t % 64` of row block `t / 64`. The body
resets its running total at the first tile of a row block and writes it out at the last. -/

/-- The reset condition of the body (first tile of a row block), from the grid coordinates. -/
abbrev condReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The write-out condition (last tile of a row block). -/
abbrev condOut (i : grid0.Coords) : Prop := k0_cond2 i = 1#1

theorem hcondReset : ∀ t : Fin cfg0.N, condReset (grid0.coords t) ↔ t.val % 64 = 0 :=
  (by decide +kernel : ∀ t : Fin grid0.N, condReset (grid0.coords t) ↔ t.val % 64 = 0)
theorem hcondOut : ∀ t : Fin cfg0.N, condOut (grid0.coords t) ↔ t.val % 64 = 63 :=
  (by decide +kernel : ∀ t : Fin grid0.N, condOut (grid0.coords t) ↔ t.val % 64 = 63)

/-! ## Reading back a buffer stored whole -/

theorem off2 : (![0, 0] : Fin 2 → Nat) = fun _ => 0 := by funext a; fin_cases a <;> rfl

/-- A buffer whose LAST store covered it whole reads back that store's value, whatever came before. -/
theorem read_writes_whole {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, by
    subst h; show y ∈ (Rect.whole S).set; rw [Rect.set_whole]; exact Finset.mem_univ y⟩)]
  exact View.canon_cons_unit_zero h inb w L

/-- A whole-buffer load of a whole buffer reads its contents. -/
theorem readAt_whole {S : Shape} {e : EltTy} {sp : Space} (mr : Memref sig .tc sp S e) (hm : mr.IsWhole)
    {off : Fin S.rank → Nat} (h : off = fun _ => 0) (inb : ∀ a, off a + S.size a ≤ S.size a) (x : S.Idx → Elt F e) :
    View.readAt (Elt F) mr.view (Rect.unit off S.size inb).toLoadRect (hm.unread x) = x := by
  show View.ld (mr.view.read (Elt F) (hm.unread x)) (Rect.unit off S.size inb) = x
  rw [hm.read_unread, View.ld_unit_zero h]

/-! ## The body, case by case -/

set_option maxHeartbeats 1000000 in
/-- A middle tile (neither first nor last of its row block): the running total `xs` becomes `xs` plus the tile's part;
    the inputs and the output's buffer are left as found. -/
theorem runMid (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x1 .f32) (harg7 : arg7.IsWhole) (arg8 : Memref sig .tc .vmem S8x1 .f32) (harg8 : arg8.IsWhole) (hc0 : ¬condReset i) (hc1 : ¬condOut i)
    (x5 x6 x7 x9 : Vec F S8x256 .f32) (xs : Vec F S8x1 .f32) (xi : Vec F S8x1 .f32) (E : Set ℕ) (K : PUnit → sProp 𝕄) :
    iprop(owns (c : Thread nD τ) arg3 fullShare x5 ∗ owns (c : Thread nD τ) arg4 fullShare x6 ∗ owns (c : Thread nD τ) arg5 fullShare x7
        ∗ owns (c : Thread nD τ) arg6 fullShare x9 ∗ owns (c : Thread nD τ) arg7 fullShare xi ∗ owns (c : Thread nD τ) arg8 fullShare xs
        ∗ (iprop(owns (c : Thread nD τ) arg3 fullShare x5 ∗ owns (c : Thread nD τ) arg4 fullShare x6 ∗ owns (c : Thread nD τ) arg5 fullShare x7
            ∗ owns (c : Thread nD τ) arg6 fullShare x9 ∗ owns (c : Thread nD τ) arg7 fullShare xi
            ∗ owns (c : Thread nD τ) arg8 fullShare (k0_pay1 (k0_pay3 x5 x6 x7 x9 xs))) -∗ K ⟨⟩))
      ⊢ wp frame (wpE (defs₀ (F := F)) Variants.none c none) E (cc0__row_sum_kernel i arg3 harg3 arg4 harg4 arg5 harg5 arg6 harg6 arg7 harg7 arg8 harg8) K := by
  simp only [cc0__row_sum_kernel_eq_skeleton]; unfold cc0__row_sum_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  iexists _; isplitr; swap; · iexact H8
  ipureintro
  rw [read_writes_whole _ _ off2]
  dsimp only
  rw [readAt_whole arg3 harg3 off2, readAt_whole arg4 harg4 off2, readAt_whole arg5 harg5 off2, readAt_whole arg6 harg6 off2,
    readAt_whole arg8 harg8 off2]

set_option maxHeartbeats 1000000 in
/-- The first tile of a row block: the running total restarts from the zero vector. -/
theorem runReset (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x1 .f32) (harg7 : arg7.IsWhole) (arg8 : Memref sig .tc .vmem S8x1 .f32) (harg8 : arg8.IsWhole) (hc0 : condReset i) (hc1 : ¬condOut i)
    (x5 x6 x7 x9 : Vec F S8x256 .f32) (xi : Vec F S8x1 .f32) (E : Set ℕ) (K : PUnit → sProp 𝕄) :
    iprop(owns (c : Thread nD τ) arg3 fullShare x5 ∗ owns (c : Thread nD τ) arg4 fullShare x6 ∗ owns (c : Thread nD τ) arg5 fullShare x7
        ∗ owns (c : Thread nD τ) arg6 fullShare x9 ∗ owns (c : Thread nD τ) arg7 fullShare xi ∗ (∃ d, owns (c : Thread nD τ) arg8 fullShare d)
        ∗ (iprop(owns (c : Thread nD τ) arg3 fullShare x5 ∗ owns (c : Thread nD τ) arg4 fullShare x6 ∗ owns (c : Thread nD τ) arg5 fullShare x7
            ∗ owns (c : Thread nD τ) arg6 fullShare x9 ∗ owns (c : Thread nD τ) arg7 fullShare xi
            ∗ owns (c : Thread nD τ) arg8 fullShare (k0_pay1 (k0_pay3 x5 x6 x7 x9 (k0_pay2 (F := F))))) -∗ K ⟨⟩))
      ⊢ wp frame (wpE (defs₀ (F := F)) Variants.none c none) E (cc0__row_sum_kernel i arg3 harg3 arg4 harg4 arg5 harg5 arg6 harg6 arg7 harg7 arg8 harg8) K := by
  simp only [cc0__row_sum_kernel_eq_skeleton]; unfold cc0__row_sum_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  iexists _; isplitr; swap; · iexact H8
  ipureintro
  rw [read_writes_whole _ _ off2]
  dsimp only
  rw [readAt_whole arg3 harg3 off2, readAt_whole arg4 harg4 off2, readAt_whole arg5 harg5 off2, readAt_whole arg6 harg6 off2]
  sl_unfold_words
  rw [View.readCov_unit_zero _ off2]

set_option maxHeartbeats 1000000 in
/-- The last tile of a row block: the running total takes the tile's part and is written out to the output's buffer. -/
theorem runOut (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x1 .f32) (harg7 : arg7.IsWhole) (arg8 : Memref sig .tc .vmem S8x1 .f32) (harg8 : arg8.IsWhole) (hc0 : ¬condReset i) (hc1 : condOut i)
    (x5 x6 x7 x9 : Vec F S8x256 .f32) (xs : Vec F S8x1 .f32) (E : Set ℕ) (K : PUnit → sProp 𝕄) :
    iprop(owns (c : Thread nD τ) arg3 fullShare x5 ∗ owns (c : Thread nD τ) arg4 fullShare x6 ∗ owns (c : Thread nD τ) arg5 fullShare x7
        ∗ owns (c : Thread nD τ) arg6 fullShare x9 ∗ (∃ d, owns (c : Thread nD τ) arg7 fullShare d) ∗ owns (c : Thread nD τ) arg8 fullShare xs
        ∗ (iprop(owns (c : Thread nD τ) arg3 fullShare x5 ∗ owns (c : Thread nD τ) arg4 fullShare x6 ∗ owns (c : Thread nD τ) arg5 fullShare x7
            ∗ owns (c : Thread nD τ) arg6 fullShare x9 ∗ owns (c : Thread nD τ) arg7 fullShare (k0_pay1 (k0_pay3 x5 x6 x7 x9 xs))
            ∗ owns (c : Thread nD τ) arg8 fullShare (k0_pay1 (k0_pay3 x5 x6 x7 x9 xs))) -∗ K ⟨⟩))
      ⊢ wp frame (wpE (defs₀ (F := F)) Variants.none c none) E (cc0__row_sum_kernel i arg3 harg3 arg4 harg4 arg5 harg5 arg6 harg6 arg7 harg7 arg8 harg8) K := by
  simp only [cc0__row_sum_kernel_eq_skeleton]; unfold cc0__row_sum_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5
  obtain rfl := harg6.eq_unread hf6; obtain rfl := harg8.eq_unread hf8
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr; swap; · iexact H7
    ipureintro
    rw [read_writes_whole _ _ off2]
    sl_unfold_words
    rw [View.readCov_unit_zero _ off2]
    dsimp only
    rw [readAt_whole arg3 harg3 off2, readAt_whole arg4 harg4 off2, readAt_whole arg5 harg5 off2, readAt_whole arg6 harg6 off2,
      readAt_whole arg8 harg8 off2]
  iexists _; isplitr; swap; · iexact H8
  ipureintro
  sl_unfold_words
  rw [read_writes_whole _ _ off2]
  dsimp only
  rw [readAt_whole arg3 harg3 off2, readAt_whole arg4 harg4 off2, readAt_whole arg5 harg5 off2, readAt_whole arg6 harg6 off2,
    readAt_whole arg8 harg8 off2]

end Cert.Kernel.Hand

end
-- ==== Proof.BitsData.lean ====
import proofs.«128781_j57904749084751_1_alg».proof.Proof.Gen.Kernel.Launch
import proofs.«128781_j57904749084751_1_alg».proof.Proof.Gen.Kernel.Skeleton
import proofs.«128781_j57904749084751_1_alg».proof.Proof.Gen.Kernel.Points
import proofs.«128781_j57904749084751_1_alg».proof.Proof.BitsBody
import Idealize.ShloMosaic.Lib.Pipeline.FrameBody
import Idealize.ShloMosaic.Lib.Pipeline.FrameSuffix
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks

Before the region @main converts the labels to floats (one host operation); `V` is the buffers' contents after it.
Window 0 and window 2 read the row tile (rows 8·bi…, columns 256·ii…) of the scores and of the float labels, window 1
and window 3 the column tile (columns 256·jj…) of the same two arrays; window 4 is the 8×1 block of the result. -/

/-- Core `c`'s buffer contents when the region is entered: after the one host operation before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, and its wholeness. -/
abbrev ms0 (t : Fin cfg0.N) : Memref sig .tc .vmem S8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x1 .f32 := win0_4.stage (cfg0.slots t 4)
abbrev hs4 (t : Fin cfg0.N) : (ms4 t).IsWhole := hstage0_4 ((cfg0.slots t 4).cast nbuf0_4)
/-- The scratch that carries the running total between points. -/
abbrev scM : Memref sig .tc .vmem S8x1 .f32 := Memref.whole cc0_scratch0

/-! ## The running total, point by point -/

/-- The running total after point `n`: at the first tile of a row block the tile's part added to the zero vector, at every
    other tile the tile's part added to the total the point before left. -/
def accAt (c : Dev nD) : (n : ℕ) → n < cfg0.N → Vec F S8x1 .f32
  | 0, hn => k0_pay1 (k0_pay3 (iblk m c 0 ⟨0, hn⟩) (iblk m c 1 ⟨0, hn⟩) (iblk m c 2 ⟨0, hn⟩) (iblk m c 3 ⟨0, hn⟩) (k0_pay2 (F := F)))
  | n + 1, hn =>
    if (n + 1) % 64 = 0 then
      k0_pay1 (k0_pay3 (iblk m c 0 ⟨n + 1, hn⟩) (iblk m c 1 ⟨n + 1, hn⟩) (iblk m c 2 ⟨n + 1, hn⟩) (iblk m c 3 ⟨n + 1, hn⟩) (k0_pay2 (F := F)))
    else
      k0_pay1 (k0_pay3 (iblk m c 0 ⟨n + 1, hn⟩) (iblk m c 1 ⟨n + 1, hn⟩) (iblk m c 2 ⟨n + 1, hn⟩) (iblk m c 3 ⟨n + 1, hn⟩) (accAt c n (Nat.lt_of_succ_lt hn)))

theorem accAt_reset (c : Dev nD) (t : Fin cfg0.N) (h0 : t.val % 64 = 0) :
    accAt m c t.val t.isLt = k0_pay1 (k0_pay3 (iblk m c 0 t) (iblk m c 1 t) (iblk m c 2 t) (iblk m c 3 t) (k0_pay2 (F := F))) := by
  obtain ⟨n, hn⟩ := t
  cases n with
  | zero => rfl
  | succ n => exact if_pos h0

theorem accAt_step (c : Dev nD) (t : Fin cfg0.N) (h0 : ¬t.val % 64 = 0) :
    accAt m c t.val t.isLt = k0_pay1 (k0_pay3 (iblk m c 0 t) (iblk m c 1 t) (iblk m c 2 t) (iblk m c 3 t)
      (accAt m c (t.val - 1) (Nat.lt_of_le_of_lt (Nat.sub_le _ _) t.isLt))) := by
  obtain ⟨n, hn⟩ := t
  cases n with
  | zero => exact absurd (Nat.zero_mod _) h0
  | succ n => exact if_neg h0

/-! ## The invariant: the scratch between points -/

/-- Before the first point the scratch holds anything; after point `n` the running total. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer at its block and the output's at the running
    total; the scratch in the invariant; the two windows on one array each hold half of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## Where the output window is idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- Away from the last tile of a row block the body stores nothing into the output's buffer and it is not written back. -/
theorem idle4 : ∀ t : Fin cfg0.N, ¬condOut (grid0.coords t) → cfg0.idle 4 (grid0.coords t) = true := by decide +kernel
theorem noFlush4 : ∀ t : Fin cfg0.N, ¬condOut (grid0.coords t) → (cfg0.win 4).flush t = false := by decide +kernel
theorem live4 : ∀ t : Fin cfg0.N, condOut (grid0.coords t) → cfg0.idle 4 (grid0.coords t) = false := by decide +kernel

/-- The scoped rest is the scratch at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's position in its row block says which case it
    is in; the invariant hands the body the scratch at what the point before left and takes it back at this point's total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 64 = 0
  · have h1 : ¬t.val % 64 = 63 := by omega
    have hco : ¬condOut (grid0.coords t) := fun h => h1 ((hcondOut t).mp h)
    rw [Dat.leavesExact_idle (dats m 0 c) 4 t (idle4 t hco) (noFlush4 t hco)]
    rw [accAt_reset m c t h0]
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩⟩
      iapply (runReset c (grid0.coords t) _ _ _ _ _ _ _ _ _ _ _ _ ((hcondReset t).mpr h0) hco (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply (runReset c (grid0.coords t) _ _ _ _ _ _ _ _ _ _ _ _ ((hcondReset t).mpr h0) hco (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hcr : ¬condReset (grid0.coords t) := fun h => h0 ((hcondReset t).mp h)
    rw [accAt_step m c t h0]
    rw [PhiS_castSucc m c t, PhiS_pos m c _ _ hz]
    by_cases h1 : t.val % 64 = 63
    · have hco : condOut (grid0.coords t) := (hcondOut t).mpr h1
      rw [show (dats m 0 c).leavesExact 4 t = owns (c : Thread nD τ) (ms4 t) fullShare ((dats m 0 c).after 4 t) from by
        unfold Dat.leavesExact; rw [live4 t hco], after4, accAt_step m c t h0]
      iintro ⟨HS, Ho, ⟨%d0, H0⟩, ⟨%d1, H1⟩, ⟨%d2, H2⟩, ⟨%d3, H3⟩, ⟨%d4, H4⟩⟩
      iapply (runOut c (grid0.coords t) _ _ _ _ _ _ _ _ _ _ _ _ hcr hco (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hco : ¬condOut (grid0.coords t) := fun h => h1 ((hcondOut t).mp h)
      rw [Dat.leavesExact_idle (dats m 0 c) 4 t (idle4 t hco) (noFlush4 t hco)]
      iintro ⟨HS, Ho, ⟨%d0, H0⟩, ⟨%d1, H1⟩, ⟨%d2, H2⟩, ⟨%d3, H3⟩, ⟨%d4, H4⟩⟩
      iapply (runMid c (grid0.coords t) _ _ _ _ _ _ _ _ _ _ _ _ hcr hco (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsLaunch.lean ====
import proofs.«128781_j57904749084751_1_alg».proof.Proof.Gen.Kernel.Launch
import proofs.«128781_j57904749084751_1_alg».proof.Proof.Gen.Kernel.Skeleton
import proofs.«128781_j57904749084751_1_alg».proof.Proof.Gen.Kernel.Points
import proofs.«128781_j57904749084751_1_alg».proof.Proof.BitsData
import Idealize.ShloMosaic.Lib.Pipeline.FrameBody
import Idealize.ShloMosaic.Lib.Pipeline.FrameSuffix
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as segments

@main is one host operation (the labels converted to floats), the kernel region, and four stretches of host operations
after it. The region's windows 0, 1 read the score array and windows 2, 3 the float labels: each array is handed to its two
windows half and half, and given back whole at the region's exit; the result array is the fifth window's. -/

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)
/-- Core `c`'s buffers at launch. -/
abbrev W0 (c : Dev nD) : Valuation τ sig (Elt F) := fun b => m (c, b)

/-- The buffers after the region: as it found them, the result array at what the write-backs left. -/
def VR (c : Dev nD) : Valuation τ sig (Elt F) := fun b =>
  if h : Proc.devRef .tc main_v1 = b then cast (congrArg (fun b' : DevRef τ sig => b'.ty.Contents (Elt F)) h) ((dats m 0 c).arrAt 4 cfg0.N)
  else V0 m c b

theorem VR_out (c : Dev nD) : VR m c (Proc.devRef .tc main_v1) = (dats m 0 c).arrAt 4 cfg0.N := by
  unfold VR; rw [dif_pos rfl]; rfl

theorem VR_of_ne (c : Dev nD) (b : Ref sig .tc) (hb : main_v1 ≠ b) : VR m c (Proc.devRef .tc b) = V0 m c (Proc.devRef .tc b) := by
  unfold VR; rw [dif_neg (fun h => hb (Proc.devRef_injective _ h))]

/-- The buffers at the end: the four stretches of host operations after the region have run. -/
abbrev VF (c : Dev nD) : Valuation τ sig (Elt F) :=
  StableHlo.after hostOps1_3 (StableHlo.after hostOps1_2 (StableHlo.after hostOps1_1 (StableHlo.after hostOps1 (VR m c))))

theorem fresh_of_mem {ops : List (HloOp τ sig (Elt F))} (h : ops.Forall fun op => op.fresh = ∅) : ∀ op ∈ ops, op.fresh = ∅ :=
  List.forall_iff_forall_mem.mp h

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- A stretch of host operations over all the unscoped buffers. -/
def hseg (ops : List (HloOp τ sig (Elt F))) (hsub : ops.Forall fun op => op.bufs ⊆ StableHlo.tcRefs τ sig)
    (hfr : ops.Forall fun op => op.fresh = ∅) (X : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h)) (List.forall_iff_forall_mem.mp hfr) X R

/-! ## The region's entry and exit: the shared arrays dealt and gathered -/

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The three buffers behind the five windows. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_v0) ↦{fullShare} X main_v0)
          ∗ (((c : Thread nD τ).loc main_v1) ↦{fullShare} X main_v1)) := by
  unfold Pipeline.arrBufs
  rw [bigSep_eq_bigSepL_of_eq [main_arg0, main_v0, main_v1] (by decide) (by decide)]
  rfl

/-- The pipeline's arrays, window by window, as points-tos of the three buffers at the windows' shares. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare.left} G 2) ∗ (((c : Thread nD τ).loc main_v0) ↦{fullShare.right} G 3)
          ∗ (((c : Thread nD τ).loc main_v1) ↦{fullShare} G 4)) := by
  unfold Dat.arrays
  rw [bigSep_W0]
  rw [(arr_whole0 0).set_eq_univ, (arr_whole0 2).set_eq_univ, (arr_whole0 4).set_eq_univ,
    share0, share1, share2, share3, share4]

/-- Entry: the three buffers behind the windows, each whole, are the pipeline's arrays at their entry contents — the score
    array and the float labels each split in two halves, one per window reading it. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, Hv, Ho⟩
  ihave Ha' := (pointsTo_share (PosShare.mem_left_op_right fullShare)).1 $$ Ha
  ihave Hv' := (pointsTo_share (PosShare.mem_left_op_right fullShare)).1 $$ Hv
  icases Ha' with ⟨Ha0, Ha1⟩
  icases Hv' with ⟨Hv0, Hv1⟩
  isplitl [Ha0]; · iexact Ha0
  isplitl [Ha1]; · iexact Ha1
  isplitl [Hv0]; · iexact Hv0
  isplitl [Hv1]; · iexact Hv1
  iexact Ho

/-- Exit: the arrays at their final contents are the three buffers whole again — the inputs as they were (an input window's
    array is never written), the result array at what the write-backs left. -/
theorem gather (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => VR m c (Proc.devRef .tc b)) := by
  rw [arrBufs_eq, arrays_eq]
  rw [(dats m 0 c).arrAt_in 0 rfl, (dats m 0 c).arrAt_in 1 rfl, (dats m 0 c).arrAt_in 2 rfl, (dats m 0 c).arrAt_in 3 rfl]
  rw [VR_out, VR_of_ne m c main_arg0 (by decide), VR_of_ne m c main_v0 (by decide)]
  iintro ⟨Ha0, Ha1, Hv0, Hv1, Ho⟩
  isplitl [Ha0 Ha1]
  · iapply (pointsTo_share (PosShare.mem_left_op_right fullShare)).2
    isplitl [Ha0]; · iexact Ha0
    iexact Ha1
  isplitl [Hv0 Hv1]
  · iapply (pointsTo_share (PosShare.mem_left_op_right fullShare)).2
    isplitl [Hv0]; · iexact Hv0
    iexact Hv1
  iexact Ho

/-- Off the windows' arrays the buffers after the region are the buffers before it. -/
theorem arrRef4 : Pipeline.arrRef spec0 (4 : Fin 5) = main_v1 := by decide

set_option maxHeartbeats 1000000 in
theorem rest_eq (c : Dev nD) :
    (Pipeline.unscopedRest (Ix := Unit) (Name := ℕ) (U := UR sig nD τ) (Lvl := ℕ) spec0 c (V m c) : sProp 𝕄)
      = Pipeline.unscopedRest spec0 c (fun b => VR m c (Proc.devRef .tc b)) := by
  unfold Pipeline.unscopedRest
  refine bigSep_congr fun b hb => ?_
  have hne : main_v1 ≠ b := fun h =>
    (Finset.mem_sdiff.mp hb).2 (Finset.mem_image.mpr ⟨(4 : Fin 5), Finset.mem_univ _, arrRef4.trans h⟩)
  exact congrArg (fun f => (((c : Thread nD τ).loc b) ↦{fullShare} f : sProp 𝕄)) (VR_of_ne m c b hne).symm

theorem ownSems0_none' (c : Dev nD) :
    (Pipeline.ownSems0 (Ix := Unit) (Name := ℕ) (U := UR sig nD τ) (Lvl := ℕ) (Val := Elt F) (τ := τ) (fun k : PEmpty => k.elim) c : sProp 𝕄) = BI.emp :=
  Pipeline.ownSems0_none nD τ sig (Elt F) Unit ℕ (UR sig nD τ) ℕ c

set_option backward.isDefEq.respectTransparency.types false in
/-- THE REGION: entered from all the unscoped buffers as the first host operation left them — the three arrays into the
    pipeline, the rest bypassing —, left with the result array at its final contents. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (VR m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Ha, Hr⟩, HO⟩, -, -⟩
    ihave Hd := (deal m c) $$ Ha
    imodintro
    isplitl [Hd]; · iexact Hd
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, scopedRest_scratch]
    iintro ⟨-, -, Hr⟩
    iexact Hr
  hout c := by
    rw [ownSems0_none', show (dats m 0 c).Φ (Fin.last cfg0.N) = PhiS m c (Fin.last cfg0.N).val (Nat.le_of_lt_succ (Fin.last cfg0.N).isLt) from rfl,
      PhiS_pos m c _ _ (by rw [Fin.val_last]; have : cfg0.N = 256 := N_0; omega), scopedRest_scratch]
    iintro HS
    isplitr; · iempintro
    isplitr; · iempintro
    iexists _; iexact HS
  hexit c := by
    rw [show StableHlo.held (c : Thread nD τ) (Pipeline.ucRefs τ sig) (VR m c) = unscopedBufs c (fun b => VR m c (Proc.devRef .tc b)) from (Pipeline.unscopedBufs_held c _).symm,
      Pipeline.unscopedBufs_split₀ cfgs 0 winFacts₀0.arr_unscoped c (fun b => VR m c (Proc.devRef .tc b)), ← rest_eq]
    iintro ⟨Ha, HO, -, HZ⟩
    ihave Hg := (gather m c) $$ Ha
    imodintro
    isplitr [HO]
    · isplitl [Hg]; · iexact Hg
      iexact HZ
    · unfold Pipeline.Dat.owesAt Pipeline.owesWithin
      icases HO with ⟨%W, -, HO⟩; iexists W; iexact HO

/-- @main as the list of its six segments. -/
abbrev segs : List (Pipeline.Seg (pcfgs (F := F)) adm (dats m) () defs₀ Variants.none L lv) :=
  [.host (hseg hostOps0 hostOps0_sub hostOps0_fresh (W0 m)), .region (reg0 m),
   .host (hseg hostOps1 hostOps1_sub hostOps1_fresh (VR m)),
   .host (hseg hostOps1_1 hostOps1_1_sub hostOps1_1_fresh (fun c => StableHlo.after hostOps1 (VR m c))),
   .host (hseg hostOps1_2 hostOps1_2_sub hostOps1_2_fresh (fun c => StableHlo.after hostOps1_1 (StableHlo.after hostOps1 (VR m c)))),
   .host (hseg hostOps1_3 hostOps1_3_sub hostOps1_3_fresh (fun c => StableHlo.after hostOps1_2 (StableHlo.after hostOps1_1 (StableHlo.after hostOps1 (VR m c)))))]

set_option backward.isDefEq.respectTransparency.types false in
/-- At the compiled mesh, for any float values, from any memory with zero counters: every weakly fair execution of @main
    terminates, and every final state has every unscoped buffer at what the host operations after the region compute from
    the buffers the region left. -/
theorem run_main : θ_run defs (onTc (τ := τ) (main (F := F))) (s₀ m ρ)
    (fun r => ∀ c : Dev nD, ∀ b ∈ Pipeline.ucRefs τ sig, r.2.mem ((c : Dev nD), b) = VF m c b) :=
  Pipeline.θ_run_regions_kit (pcfgs (F := F)) adm (dats m) () cellOf_inj EP defs₀ Variants.none L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (VF m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = VF m c b)
    (hfin := fun c s' => by
      unfold StableHlo.held
      iintro ⟨Hh, HSI⟩
      imodintro
      iapply (pointsTo_read_all (Pipeline.ucRefs τ sig) (fun b => (((c : Dev nD), b) : Loc nD τ sig)) (VF m c) s')
      isplitl [Hh] <;> iassumption)
    (hQ := fun _ h => h)

end Cert.Kernel.Hand

end
-- ==== Proof.BitsKeeps.lean ====
/-
  No host operation of the program writes an argument.

  Before the call one operation converts the labels to floats and writes the converted array only; after the call each
  operation writes the one value it defines. Listing, stretch by stretch, the values the operations define shows that the
  two arguments are not among them, so each argument's buffer holds at the end what it held at the start.
-/
import proofs.«128781_j57904749084751_1_alg».proof.Proof.Gen.Kernel.Launch
import Idealize.ShloMosaic.Lib.StableHlo.Run

noncomputable section

namespace Cert.Kernel.Keeps

open Idealize.ShloMosaic Idealize.ShloMosaic.TcCoe Cert.Kernel Cert.Kernel.Gen

variable {F : FTy → Type} [FloatOps F]

/-- The values each stretch of host operations defines, stretch by stretch. -/
abbrev W0 : List (Ref sig .tc) := [main_v0]
abbrev W1 : List (Ref sig .tc) :=
  [main_v2, main_cst, main_v3, main_cst_0, main_v4, main_v5, main_cst_1, main_v6, main_v7, main_cst_2, main_v8, main_v9,
    main_cst_3, main_v10, main_v11, main_v12, main_v13, main_c, main_v14, main_v15, main_cst_4]
abbrev W1_1 : List (Ref sig .tc) := [main_call0_v0, main_call0_v1, main_v16]
abbrev W1_2 : List (Ref sig .tc) :=
  [main_cst_5, main_v17, main_cst_6, main_v18, main_v19, main_cst_7, main_v20, main_cst_8]
abbrev W1_3 : List (Ref sig .tc) := [main_v21]

/-- Each operation of a stretch writes one of the stretch's values. -/
theorem hostOps0_writes : (hostOps0 : List (HloOp τ sig (Elt F))).Forall fun op =>
    op.writes ⊆ (W0.map (Proc.devRef (τ := τ) .tc)).toFinset := by
  simp only [List.Forall]
  simp only [StableHlo.nullary_writes, StableHlo.unary_writes, StableHlo.binary_writes, StableHlo.ternary_writes,
      StableHlo.reshape_writes, Finset.singleton_subset_iff, List.mem_toFinset]
  exact List.mem_map_of_mem (by decide)

theorem hostOps1_writes : (hostOps1 : List (HloOp τ sig (Elt F))).Forall fun op =>
    op.writes ⊆ (W1.map (Proc.devRef (τ := τ) .tc)).toFinset := by
  simp only [List.Forall]
  and_intros <;>
    (simp only [StableHlo.nullary_writes, StableHlo.unary_writes, StableHlo.binary_writes, StableHlo.ternary_writes,
      StableHlo.reshape_writes, Finset.singleton_subset_iff, List.mem_toFinset]
     exact List.mem_map_of_mem (by decide))

theorem hostOps1_1_writes : (hostOps1_1 : List (HloOp τ sig (Elt F))).Forall fun op =>
    op.writes ⊆ (W1_1.map (Proc.devRef (τ := τ) .tc)).toFinset := by
  simp only [List.Forall]
  and_intros <;>
    (simp only [StableHlo.nullary_writes, StableHlo.unary_writes, StableHlo.binary_writes, StableHlo.ternary_writes,
      StableHlo.reshape_writes, Finset.singleton_subset_iff, List.mem_toFinset]
     exact List.mem_map_of_mem (by decide))

theorem hostOps1_2_writes : (hostOps1_2 : List (HloOp τ sig (Elt F))).Forall fun op =>
    op.writes ⊆ (W1_2.map (Proc.devRef (τ := τ) .tc)).toFinset := by
  simp only [List.Forall]
  and_intros <;>
    (simp only [StableHlo.nullary_writes, StableHlo.unary_writes, StableHlo.binary_writes, StableHlo.ternary_writes,
      StableHlo.reshape_writes, Finset.singleton_subset_iff, List.mem_toFinset]
     exact List.mem_map_of_mem (by decide))

theorem hostOps1_3_writes : (hostOps1_3 : List (HloOp τ sig (Elt F))).Forall fun op =>
    op.writes ⊆ (W1_3.map (Proc.devRef (τ := τ) .tc)).toFinset := by
  simp only [List.Forall]
  simp only [StableHlo.nullary_writes, StableHlo.unary_writes, StableHlo.binary_writes, StableHlo.ternary_writes,
      StableHlo.reshape_writes, Finset.singleton_subset_iff, List.mem_toFinset]
  exact List.mem_map_of_mem (by decide)

/-- A value the operation before the call does not define is unchanged by it. -/
theorem keeps0 (X : Valuation τ sig (Elt F)) (r : Ref sig .tc) (h : r ∉ W0) :
    StableHlo.after hostOps0 X (Proc.devRef .tc r) = X (Proc.devRef .tc r) :=
  StableHlo.after_of_writes_sub hostOps0 _ hostOps0_writes h

/-- A value none of the operations after the call defines is unchanged by them. -/
theorem tail_keeps (X : Valuation τ sig (Elt F)) (r : Ref sig .tc) (h1 : r ∉ W1) (h2 : r ∉ W1_1) (h3 : r ∉ W1_2)
    (h4 : r ∉ W1_3) :
    StableHlo.after hostOps1_3 (StableHlo.after hostOps1_2 (StableHlo.after hostOps1_1 (StableHlo.after hostOps1 X)))
        (Proc.devRef .tc r) = X (Proc.devRef .tc r) :=
  (StableHlo.after_of_writes_sub hostOps1_3 _ hostOps1_3_writes h4).trans <|
    (StableHlo.after_of_writes_sub hostOps1_2 _ hostOps1_2_writes h3).trans <|
      (StableHlo.after_of_writes_sub hostOps1_1 _ hostOps1_1_writes h2).trans <|
        StableHlo.after_of_writes_sub hostOps1 _ hostOps1_writes h1

theorem keeps0_arg0 (X : Valuation τ sig (Elt F)) :
    StableHlo.after hostOps0 X (Proc.devRef .tc main_arg0) = X (Proc.devRef .tc main_arg0) :=
  keeps0 X main_arg0 (by decide)

theorem keeps0_arg1 (X : Valuation τ sig (Elt F)) :
    StableHlo.after hostOps0 X (Proc.devRef .tc main_arg1) = X (Proc.devRef .tc main_arg1) :=
  keeps0 X main_arg1 (by decide)

theorem tail_keeps_arg0 (X : Valuation τ sig (Elt F)) :
    StableHlo.after hostOps1_3 (StableHlo.after hostOps1_2 (StableHlo.after hostOps1_1 (StableHlo.after hostOps1 X)))
        (Proc.devRef .tc main_arg0) = X (Proc.devRef .tc main_arg0) :=
  tail_keeps X main_arg0 (by decide) (by decide) (by decide) (by decide)

theorem tail_keeps_arg1 (X : Valuation τ sig (Elt F)) :
    StableHlo.after hostOps1_3 (StableHlo.after hostOps1_2 (StableHlo.after hostOps1_1 (StableHlo.after hostOps1 X)))
        (Proc.devRef .tc main_arg1) = X (Proc.devRef .tc main_arg1) :=
  tail_keeps X main_arg1 (by decide) (by decide) (by decide) (by decide)

end Cert.Kernel.Keeps

end
-- ==== Proof.BitsFrame.lean ====
import proofs.«128781_j57904749084751_1_alg».proof.Proof.Gen.Kernel.Launch
import proofs.«128781_j57904749084751_1_alg».proof.Proof.Gen.Kernel.Skeleton
import proofs.«128781_j57904749084751_1_alg».proof.Proof.Gen.Kernel.Points
import proofs.«128781_j57904749084751_1_alg».proof.Proof.BitsLaunch
import proofs.«128781_j57904749084751_1_alg».proof.Proof.BitsKeeps
import Idealize.ShloMosaic.Lib.Pipeline.FrameBody
import Idealize.ShloMosaic.Lib.Pipeline.FrameSuffix
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame: no host operation and no write-back touches an argument array -/

theorem mem_arg0 : Proc.devRef (τ := τ) .tc main_arg0 ∈ Pipeline.ucRefs τ sig := by decide
theorem mem_arg1 : Proc.devRef (τ := τ) .tc main_arg1 ∈ Pipeline.ucRefs τ sig := by decide
theorem mem_v21 : Proc.devRef (τ := τ) .tc main_v21 ∈ Pipeline.ucRefs τ sig := by decide

/-- The score array ends as launched: the region only reads it, and no host operation writes it. -/
theorem VF_arg0 (c : Dev nD) : VF m c (Proc.devRef .tc main_arg0) = m ((c.tc : Thread nD τ).loc main_arg0) :=
  (Keeps.tail_keeps_arg0 (VR m c)).trans ((VR_of_ne m c main_arg0 (by decide)).trans (Keeps.keeps0_arg0 (W0 m c)))

/-- The label array ends as launched. -/
theorem VF_arg1 (c : Dev nD) : VF m c (Proc.devRef .tc main_arg1) = m ((c.tc : Thread nD τ).loc main_arg1) :=
  (Keeps.tail_keeps_arg1 (VR m c)).trans ((VR_of_ne m c main_arg1 (by decide)).trans (Keeps.keeps0_arg1 (W0 m c)))

/-- Every weakly fair execution terminates, nothing faulting, with the result at the final valuation and both argument
    arrays unchanged. -/
theorem run_result : θ_run defs (onTc (τ := τ) (main (F := F))) ⟨m, fun _ => 0, ρ⟩ (fun r => ∀ c : Dev nD,
      r.2.mem ((c.tc : Thread nD τ).loc main_v21) = VF m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ mem_v21, (h c _ mem_arg0).trans (VF_arg0 m c), (h c _ mem_arg1).trans (VF_arg1 m c)⟩)
    (run_main m ρ)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.Kernel.Hand

end
-- ==== Proof.IdealBody.lean ====
import proofs.«128781_j57904749084751_1_alg».proof.Proof.Gen.KernelIdeal.Launch
import proofs.«128781_j57904749084751_1_alg».proof.Proof.Gen.KernelIdeal.Skeleton
import proofs.«128781_j57904749084751_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid

The grid is 4 × 8 × 8 (row block, row tile, column tile); point `t` is tile `t % 64` of row block `t / 64`. The body
resets its running total at the first tile of a row block and writes it out at the last. -/

/-- The reset condition of the body (first tile of a row block), from the grid coordinates. -/
abbrev condReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- The write-out condition (last tile of a row block). -/
abbrev condOut (i : grid0.Coords) : Prop := k0_cond2 i = 1#1

theorem hcondReset : ∀ t : Fin cfg0.N, condReset (grid0.coords t) ↔ t.val % 64 = 0 :=
  (by decide +kernel : ∀ t : Fin grid0.N, condReset (grid0.coords t) ↔ t.val % 64 = 0)
theorem hcondOut : ∀ t : Fin cfg0.N, condOut (grid0.coords t) ↔ t.val % 64 = 63 :=
  (by decide +kernel : ∀ t : Fin grid0.N, condOut (grid0.coords t) ↔ t.val % 64 = 63)

/-! ## Reading back a buffer stored whole -/

theorem off2 : (![0, 0] : Fin 2 → Nat) = fun _ => 0 := by funext a; fin_cases a <;> rfl

/-- A buffer whose LAST store covered it whole reads back that store's value, whatever came before. -/
theorem read_writes_whole {S : Shape} {e : EltTy} {sp : Space} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, by
    subst h; show y ∈ (Rect.whole S).set; rw [Rect.set_whole]; exact Finset.mem_univ y⟩)]
  exact View.canon_cons_unit_zero h inb w L

/-- A whole-buffer load of a whole buffer reads its contents. -/
theorem readAt_whole {S : Shape} {e : EltTy} {sp : Space} (mr : Memref sig .tc sp S e) (hm : mr.IsWhole)
    {off : Fin S.rank → Nat} (h : off = fun _ => 0) (inb : ∀ a, off a + S.size a ≤ S.size a) (x : S.Idx → Elt F e) :
    View.readAt (Elt F) mr.view (Rect.unit off S.size inb).toLoadRect (hm.unread x) = x := by
  show View.ld (mr.view.read (Elt F) (hm.unread x)) (Rect.unit off S.size inb) = x
  rw [hm.read_unread, View.ld_unit_zero h]

/-! ## The body, case by case -/

set_option maxHeartbeats 1000000 in
/-- A middle tile (neither first nor last of its row block): the running total `xs` becomes `xs` plus the tile's part;
    the inputs and the output's buffer are left as found. -/
theorem runMid (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x1 .f32) (harg7 : arg7.IsWhole) (arg8 : Memref sig .tc .vmem S8x1 .f32) (harg8 : arg8.IsWhole) (hc0 : ¬condReset i) (hc1 : ¬condOut i)
    (x5 x6 x7 x9 : Vec F S8x256 .f32) (xs : Vec F S8x1 .f32) (xi : Vec F S8x1 .f32) (E : Set ℕ) (K : PUnit → sProp 𝕄) :
    iprop(owns (c : Thread nD τ) arg3 fullShare x5 ∗ owns (c : Thread nD τ) arg4 fullShare x6 ∗ owns (c : Thread nD τ) arg5 fullShare x7
        ∗ owns (c : Thread nD τ) arg6 fullShare x9 ∗ owns (c : Thread nD τ) arg7 fullShare xi ∗ owns (c : Thread nD τ) arg8 fullShare xs
        ∗ (iprop(owns (c : Thread nD τ) arg3 fullShare x5 ∗ owns (c : Thread nD τ) arg4 fullShare x6 ∗ owns (c : Thread nD τ) arg5 fullShare x7
            ∗ owns (c : Thread nD τ) arg6 fullShare x9 ∗ owns (c : Thread nD τ) arg7 fullShare xi
            ∗ owns (c : Thread nD τ) arg8 fullShare (k0_pay1 (k0_pay3 x5 x6 x7 x9 xs))) -∗ K ⟨⟩))
      ⊢ wp frame (wpE (defs₀ (F := F)) Variants.none c none) E (cc0__row_sum_kernel i arg3 harg3 arg4 harg4 arg5 harg5 arg6 harg6 arg7 harg7 arg8 harg8) K := by
  simp only [cc0__row_sum_kernel_eq_skeleton]; unfold cc0__row_sum_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  iexists _; isplitr; swap; · iexact H8
  ipureintro
  rw [read_writes_whole _ _ off2]
  dsimp only
  rw [readAt_whole arg3 harg3 off2, readAt_whole arg4 harg4 off2, readAt_whole arg5 harg5 off2, readAt_whole arg6 harg6 off2,
    readAt_whole arg8 harg8 off2]

set_option maxHeartbeats 1000000 in
/-- The first tile of a row block: the running total restarts from the zero vector. -/
theorem runReset (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x1 .f32) (harg7 : arg7.IsWhole) (arg8 : Memref sig .tc .vmem S8x1 .f32) (harg8 : arg8.IsWhole) (hc0 : condReset i) (hc1 : ¬condOut i)
    (x5 x6 x7 x9 : Vec F S8x256 .f32) (xi : Vec F S8x1 .f32) (E : Set ℕ) (K : PUnit → sProp 𝕄) :
    iprop(owns (c : Thread nD τ) arg3 fullShare x5 ∗ owns (c : Thread nD τ) arg4 fullShare x6 ∗ owns (c : Thread nD τ) arg5 fullShare x7
        ∗ owns (c : Thread nD τ) arg6 fullShare x9 ∗ owns (c : Thread nD τ) arg7 fullShare xi ∗ (∃ d, owns (c : Thread nD τ) arg8 fullShare d)
        ∗ (iprop(owns (c : Thread nD τ) arg3 fullShare x5 ∗ owns (c : Thread nD τ) arg4 fullShare x6 ∗ owns (c : Thread nD τ) arg5 fullShare x7
            ∗ owns (c : Thread nD τ) arg6 fullShare x9 ∗ owns (c : Thread nD τ) arg7 fullShare xi
            ∗ owns (c : Thread nD τ) arg8 fullShare (k0_pay1 (k0_pay3 x5 x6 x7 x9 (k0_pay2 (F := F))))) -∗ K ⟨⟩))
      ⊢ wp frame (wpE (defs₀ (F := F)) Variants.none c none) E (cc0__row_sum_kernel i arg3 harg3 arg4 harg4 arg5 harg5 arg6 harg6 arg7 harg7 arg8 harg8) K := by
  simp only [cc0__row_sum_kernel_eq_skeleton]; unfold cc0__row_sum_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  iexists _; isplitr; swap; · iexact H8
  ipureintro
  rw [read_writes_whole _ _ off2]
  dsimp only
  rw [readAt_whole arg3 harg3 off2, readAt_whole arg4 harg4 off2, readAt_whole arg5 harg5 off2, readAt_whole arg6 harg6 off2]
  sl_unfold_words
  rw [View.readCov_unit_zero _ off2]

set_option maxHeartbeats 1000000 in
/-- The last tile of a row block: the running total takes the tile's part and is written out to the output's buffer. -/
theorem runOut (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S8x1 .f32) (harg7 : arg7.IsWhole) (arg8 : Memref sig .tc .vmem S8x1 .f32) (harg8 : arg8.IsWhole) (hc0 : ¬condReset i) (hc1 : condOut i)
    (x5 x6 x7 x9 : Vec F S8x256 .f32) (xs : Vec F S8x1 .f32) (E : Set ℕ) (K : PUnit → sProp 𝕄) :
    iprop(owns (c : Thread nD τ) arg3 fullShare x5 ∗ owns (c : Thread nD τ) arg4 fullShare x6 ∗ owns (c : Thread nD τ) arg5 fullShare x7
        ∗ owns (c : Thread nD τ) arg6 fullShare x9 ∗ (∃ d, owns (c : Thread nD τ) arg7 fullShare d) ∗ owns (c : Thread nD τ) arg8 fullShare xs
        ∗ (iprop(owns (c : Thread nD τ) arg3 fullShare x5 ∗ owns (c : Thread nD τ) arg4 fullShare x6 ∗ owns (c : Thread nD τ) arg5 fullShare x7
            ∗ owns (c : Thread nD τ) arg6 fullShare x9 ∗ owns (c : Thread nD τ) arg7 fullShare (k0_pay1 (k0_pay3 x5 x6 x7 x9 xs))
            ∗ owns (c : Thread nD τ) arg8 fullShare (k0_pay1 (k0_pay3 x5 x6 x7 x9 xs))) -∗ K ⟨⟩))
      ⊢ wp frame (wpE (defs₀ (F := F)) Variants.none c none) E (cc0__row_sum_kernel i arg3 harg3 arg4 harg4 arg5 harg5 arg6 harg6 arg7 harg7 arg8 harg8) K := by
  simp only [cc0__row_sum_kernel_eq_skeleton]; unfold cc0__row_sum_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5
  obtain rfl := harg6.eq_unread hf6; obtain rfl := harg8.eq_unread hf8
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]
  · iexists _; isplitr; swap; · iexact H7
    ipureintro
    rw [read_writes_whole _ _ off2]
    sl_unfold_words
    rw [View.readCov_unit_zero _ off2]
    dsimp only
    rw [readAt_whole arg3 harg3 off2, readAt_whole arg4 harg4 off2, readAt_whole arg5 harg5 off2, readAt_whole arg6 harg6 off2,
      readAt_whole arg8 harg8 off2]
  iexists _; isplitr; swap; · iexact H8
  ipureintro
  sl_unfold_words
  rw [read_writes_whole _ _ off2]
  dsimp only
  rw [readAt_whole arg3 harg3 off2, readAt_whole arg4 harg4 off2, readAt_whole arg5 harg5 off2, readAt_whole arg6 harg6 off2,
    readAt_whole arg8 harg8 off2]

end Cert.KernelIdeal.Hand

end
-- ==== Proof.IdealData.lean ====
import proofs.«128781_j57904749084751_1_alg».proof.Proof.Gen.KernelIdeal.Launch
import proofs.«128781_j57904749084751_1_alg».proof.Proof.Gen.KernelIdeal.Skeleton
import proofs.«128781_j57904749084751_1_alg».proof.Proof.Gen.KernelIdeal.Points
import proofs.«128781_j57904749084751_1_alg».proof.Proof.IdealBody
import Idealize.ShloMosaic.Lib.Pipeline.FrameBody
import Idealize.ShloMosaic.Lib.Pipeline.FrameSuffix
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks

Before the region @main converts the labels to floats (one host operation); `V` is the buffers' contents after it.
Window 0 and window 2 read the row tile (rows 8·bi…, columns 256·ii…) of the scores and of the float labels, window 1
and window 3 the column tile (columns 256·jj…) of the same two arrays; window 4 is the 8×1 block of the result. -/

/-- Core `c`'s buffer contents when the region is entered: after the one host operation before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, and its wholeness. -/
abbrev ms0 (t : Fin cfg0.N) : Memref sig .tc .vmem S8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x1 .f32 := win0_4.stage (cfg0.slots t 4)
abbrev hs4 (t : Fin cfg0.N) : (ms4 t).IsWhole := hstage0_4 ((cfg0.slots t 4).cast nbuf0_4)
/-- The scratch that carries the running total between points. -/
abbrev scM : Memref sig .tc .vmem S8x1 .f32 := Memref.whole cc0_scratch0

/-! ## The running total, point by point -/

/-- The running total after point `n`: at the first tile of a row block the tile's part added to the zero vector, at every
    other tile the tile's part added to the total the point before left. -/
def accAt (c : Dev nD) : (n : ℕ) → n < cfg0.N → Vec F S8x1 .f32
  | 0, hn => k0_pay1 (k0_pay3 (iblk m c 0 ⟨0, hn⟩) (iblk m c 1 ⟨0, hn⟩) (iblk m c 2 ⟨0, hn⟩) (iblk m c 3 ⟨0, hn⟩) (k0_pay2 (F := F)))
  | n + 1, hn =>
    if (n + 1) % 64 = 0 then
      k0_pay1 (k0_pay3 (iblk m c 0 ⟨n + 1, hn⟩) (iblk m c 1 ⟨n + 1, hn⟩) (iblk m c 2 ⟨n + 1, hn⟩) (iblk m c 3 ⟨n + 1, hn⟩) (k0_pay2 (F := F)))
    else
      k0_pay1 (k0_pay3 (iblk m c 0 ⟨n + 1, hn⟩) (iblk m c 1 ⟨n + 1, hn⟩) (iblk m c 2 ⟨n + 1, hn⟩) (iblk m c 3 ⟨n + 1, hn⟩) (accAt c n (Nat.lt_of_succ_lt hn)))

theorem accAt_reset (c : Dev nD) (t : Fin cfg0.N) (h0 : t.val % 64 = 0) :
    accAt m c t.val t.isLt = k0_pay1 (k0_pay3 (iblk m c 0 t) (iblk m c 1 t) (iblk m c 2 t) (iblk m c 3 t) (k0_pay2 (F := F))) := by
  obtain ⟨n, hn⟩ := t
  cases n with
  | zero => rfl
  | succ n => exact if_pos h0

theorem accAt_step (c : Dev nD) (t : Fin cfg0.N) (h0 : ¬t.val % 64 = 0) :
    accAt m c t.val t.isLt = k0_pay1 (k0_pay3 (iblk m c 0 t) (iblk m c 1 t) (iblk m c 2 t) (iblk m c 3 t)
      (accAt m c (t.val - 1) (Nat.lt_of_le_of_lt (Nat.sub_le _ _) t.isLt))) := by
  obtain ⟨n, hn⟩ := t
  cases n with
  | zero => exact absurd (Nat.zero_mod _) h0
  | succ n => exact if_neg h0

/-! ## The invariant: the scratch between points -/

/-- Before the first point the scratch holds anything; after point `n` the running total. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer at its block and the output's at the running
    total; the scratch in the invariant; the two windows on one array each hold half of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## Where the output window is idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- Away from the last tile of a row block the body stores nothing into the output's buffer and it is not written back. -/
theorem idle4 : ∀ t : Fin cfg0.N, ¬condOut (grid0.coords t) → cfg0.idle 4 (grid0.coords t) = true := by decide +kernel
theorem noFlush4 : ∀ t : Fin cfg0.N, ¬condOut (grid0.coords t) → (cfg0.win 4).flush t = false := by decide +kernel
theorem live4 : ∀ t : Fin cfg0.N, condOut (grid0.coords t) → cfg0.idle 4 (grid0.coords t) = false := by decide +kernel

/-- The scoped rest is the scratch at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's position in its row block says which case it
    is in; the invariant hands the body the scratch at what the point before left and takes it back at this point's total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  by_cases h0 : t.val % 64 = 0
  · have h1 : ¬t.val % 64 = 63 := by omega
    have hco : ¬condOut (grid0.coords t) := fun h => h1 ((hcondOut t).mp h)
    rw [Dat.leavesExact_idle (dats m 0 c) 4 t (idle4 t hco) (noFlush4 t hco)]
    rw [accAt_reset m c t h0]
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩⟩
      iapply (runReset c (grid0.coords t) _ _ _ _ _ _ _ _ _ _ _ _ ((hcondReset t).mpr h0) hco (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply (runReset c (grid0.coords t) _ _ _ _ _ _ _ _ _ _ _ _ ((hcondReset t).mpr h0) hco (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hcr : ¬condReset (grid0.coords t) := fun h => h0 ((hcondReset t).mp h)
    rw [accAt_step m c t h0]
    rw [PhiS_castSucc m c t, PhiS_pos m c _ _ hz]
    by_cases h1 : t.val % 64 = 63
    · have hco : condOut (grid0.coords t) := (hcondOut t).mpr h1
      rw [show (dats m 0 c).leavesExact 4 t = owns (c : Thread nD τ) (ms4 t) fullShare ((dats m 0 c).after 4 t) from by
        unfold Dat.leavesExact; rw [live4 t hco], after4, accAt_step m c t h0]
      iintro ⟨HS, Ho, ⟨%d0, H0⟩, ⟨%d1, H1⟩, ⟨%d2, H2⟩, ⟨%d3, H3⟩, ⟨%d4, H4⟩⟩
      iapply (runOut c (grid0.coords t) _ _ _ _ _ _ _ _ _ _ _ _ hcr hco (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hco : ¬condOut (grid0.coords t) := fun h => h1 ((hcondOut t).mp h)
      rw [Dat.leavesExact_idle (dats m 0 c) 4 t (idle4 t hco) (noFlush4 t hco)]
      iintro ⟨HS, Ho, ⟨%d0, H0⟩, ⟨%d1, H1⟩, ⟨%d2, H2⟩, ⟨%d3, H3⟩, ⟨%d4, H4⟩⟩
      iapply (runMid c (grid0.coords t) _ _ _ _ _ _ _ _ _ _ _ _ hcr hco (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealLaunch.lean ====
import proofs.«128781_j57904749084751_1_alg».proof.Proof.Gen.KernelIdeal.Launch
import proofs.«128781_j57904749084751_1_alg».proof.Proof.Gen.KernelIdeal.Skeleton
import proofs.«128781_j57904749084751_1_alg».proof.Proof.Gen.KernelIdeal.Points
import proofs.«128781_j57904749084751_1_alg».proof.Proof.IdealData
import Idealize.ShloMosaic.Lib.Pipeline.FrameBody
import Idealize.ShloMosaic.Lib.Pipeline.FrameSuffix
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program as segments

@main is one host operation (the labels converted to floats), the kernel region, and four stretches of host operations
after it. The region's windows 0, 1 read the score array and windows 2, 3 the float labels: each array is handed to its two
windows half and half, and given back whole at the region's exit; the result array is the fifth window's. -/

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)
/-- Core `c`'s buffers at launch. -/
abbrev W0 (c : Dev nD) : Valuation τ sig (Elt F) := fun b => m (c, b)

/-- The buffers after the region: as it found them, the result array at what the write-backs left. -/
def VR (c : Dev nD) : Valuation τ sig (Elt F) := fun b =>
  if h : Proc.devRef .tc main_v1 = b then cast (congrArg (fun b' : DevRef τ sig => b'.ty.Contents (Elt F)) h) ((dats m 0 c).arrAt 4 cfg0.N)
  else V0 m c b

theorem VR_out (c : Dev nD) : VR m c (Proc.devRef .tc main_v1) = (dats m 0 c).arrAt 4 cfg0.N := by
  unfold VR; rw [dif_pos rfl]; rfl

theorem VR_of_ne (c : Dev nD) (b : Ref sig .tc) (hb : main_v1 ≠ b) : VR m c (Proc.devRef .tc b) = V0 m c (Proc.devRef .tc b) := by
  unfold VR; rw [dif_neg (fun h => hb (Proc.devRef_injective _ h))]

/-- The buffers at the end: the four stretches of host operations after the region have run. -/
abbrev VF (c : Dev nD) : Valuation τ sig (Elt F) :=
  StableHlo.after hostOps1_3 (StableHlo.after hostOps1_2 (StableHlo.after hostOps1_1 (StableHlo.after hostOps1 (VR m c))))

theorem fresh_of_mem {ops : List (HloOp τ sig (Elt F))} (h : ops.Forall fun op => op.fresh = ∅) : ∀ op ∈ ops, op.fresh = ∅ :=
  List.forall_iff_forall_mem.mp h

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- A stretch of host operations over all the unscoped buffers. -/
def hseg (ops : List (HloOp τ sig (Elt F))) (hsub : ops.Forall fun op => op.bufs ⊆ StableHlo.tcRefs τ sig)
    (hfr : ops.Forall fun op => op.fresh = ∅) (X : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h)) (List.forall_iff_forall_mem.mp hfr) X R

/-! ## The region's entry and exit: the shared arrays dealt and gathered -/

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The three buffers behind the five windows. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_v0) ↦{fullShare} X main_v0)
          ∗ (((c : Thread nD τ).loc main_v1) ↦{fullShare} X main_v1)) := by
  unfold Pipeline.arrBufs
  rw [bigSep_eq_bigSepL_of_eq [main_arg0, main_v0, main_v1] (by decide) (by decide)]
  rfl

/-- The pipeline's arrays, window by window, as points-tos of the three buffers at the windows' shares. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare.left} G 2) ∗ (((c : Thread nD τ).loc main_v0) ↦{fullShare.right} G 3)
          ∗ (((c : Thread nD τ).loc main_v1) ↦{fullShare} G 4)) := by
  unfold Dat.arrays
  rw [bigSep_W0]
  rw [(arr_whole0 0).set_eq_univ, (arr_whole0 2).set_eq_univ, (arr_whole0 4).set_eq_univ,
    share0, share1, share2, share3, share4]

/-- Entry: the three buffers behind the windows, each whole, are the pipeline's arrays at their entry contents — the score
    array and the float labels each split in two halves, one per window reading it. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, Hv, Ho⟩
  ihave Ha' := (pointsTo_share (PosShare.mem_left_op_right fullShare)).1 $$ Ha
  ihave Hv' := (pointsTo_share (PosShare.mem_left_op_right fullShare)).1 $$ Hv
  icases Ha' with ⟨Ha0, Ha1⟩
  icases Hv' with ⟨Hv0, Hv1⟩
  isplitl [Ha0]; · iexact Ha0
  isplitl [Ha1]; · iexact Ha1
  isplitl [Hv0]; · iexact Hv0
  isplitl [Hv1]; · iexact Hv1
  iexact Ho

/-- Exit: the arrays at their final contents are the three buffers whole again — the inputs as they were (an input window's
    array is never written), the result array at what the write-backs left. -/
theorem gather (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => VR m c (Proc.devRef .tc b)) := by
  rw [arrBufs_eq, arrays_eq]
  rw [(dats m 0 c).arrAt_in 0 rfl, (dats m 0 c).arrAt_in 1 rfl, (dats m 0 c).arrAt_in 2 rfl, (dats m 0 c).arrAt_in 3 rfl]
  rw [VR_out, VR_of_ne m c main_arg0 (by decide), VR_of_ne m c main_v0 (by decide)]
  iintro ⟨Ha0, Ha1, Hv0, Hv1, Ho⟩
  isplitl [Ha0 Ha1]
  · iapply (pointsTo_share (PosShare.mem_left_op_right fullShare)).2
    isplitl [Ha0]; · iexact Ha0
    iexact Ha1
  isplitl [Hv0 Hv1]
  · iapply (pointsTo_share (PosShare.mem_left_op_right fullShare)).2
    isplitl [Hv0]; · iexact Hv0
    iexact Hv1
  iexact Ho

/-- Off the windows' arrays the buffers after the region are the buffers before it. -/
theorem arrRef4 : Pipeline.arrRef spec0 (4 : Fin 5) = main_v1 := by decide

set_option maxHeartbeats 1000000 in
theorem rest_eq (c : Dev nD) :
    (Pipeline.unscopedRest (Ix := Unit) (Name := ℕ) (U := UR sig nD τ) (Lvl := ℕ) spec0 c (V m c) : sProp 𝕄)
      = Pipeline.unscopedRest spec0 c (fun b => VR m c (Proc.devRef .tc b)) := by
  unfold Pipeline.unscopedRest
  refine bigSep_congr fun b hb => ?_
  have hne : main_v1 ≠ b := fun h =>
    (Finset.mem_sdiff.mp hb).2 (Finset.mem_image.mpr ⟨(4 : Fin 5), Finset.mem_univ _, arrRef4.trans h⟩)
  exact congrArg (fun f => (((c : Thread nD τ).loc b) ↦{fullShare} f : sProp 𝕄)) (VR_of_ne m c b hne).symm

theorem ownSems0_none' (c : Dev nD) :
    (Pipeline.ownSems0 (Ix := Unit) (Name := ℕ) (U := UR sig nD τ) (Lvl := ℕ) (Val := Elt F) (τ := τ) (fun k : PEmpty => k.elim) c : sProp 𝕄) = BI.emp :=
  Pipeline.ownSems0_none nD τ sig (Elt F) Unit ℕ (UR sig nD τ) ℕ c

set_option backward.isDefEq.respectTransparency.types false in
/-- THE REGION: entered from all the unscoped buffers as the first host operation left them — the three arrays into the
    pipeline, the rest bypassing —, left with the result array at its final contents. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (VR m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Ha, Hr⟩, HO⟩, -, -⟩
    ihave Hd := (deal m c) $$ Ha
    imodintro
    isplitl [Hd]; · iexact Hd
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, scopedRest_scratch]
    iintro ⟨-, -, Hr⟩
    iexact Hr
  hout c := by
    rw [ownSems0_none', show (dats m 0 c).Φ (Fin.last cfg0.N) = PhiS m c (Fin.last cfg0.N).val (Nat.le_of_lt_succ (Fin.last cfg0.N).isLt) from rfl,
      PhiS_pos m c _ _ (by rw [Fin.val_last]; have : cfg0.N = 256 := N_0; omega), scopedRest_scratch]
    iintro HS
    isplitr; · iempintro
    isplitr; · iempintro
    iexists _; iexact HS
  hexit c := by
    rw [show StableHlo.held (c : Thread nD τ) (Pipeline.ucRefs τ sig) (VR m c) = unscopedBufs c (fun b => VR m c (Proc.devRef .tc b)) from (Pipeline.unscopedBufs_held c _).symm,
      Pipeline.unscopedBufs_split₀ cfgs 0 winFacts₀0.arr_unscoped c (fun b => VR m c (Proc.devRef .tc b)), ← rest_eq]
    iintro ⟨Ha, HO, -, HZ⟩
    ihave Hg := (gather m c) $$ Ha
    imodintro
    isplitr [HO]
    · isplitl [Hg]; · iexact Hg
      iexact HZ
    · unfold Pipeline.Dat.owesAt Pipeline.owesWithin
      icases HO with ⟨%W, -, HO⟩; iexists W; iexact HO

/-- @main as the list of its six segments. -/
abbrev segs : List (Pipeline.Seg (pcfgs (F := F)) adm (dats m) () defs₀ Variants.none L lv) :=
  [.host (hseg hostOps0 hostOps0_sub hostOps0_fresh (W0 m)), .region (reg0 m),
   .host (hseg hostOps1 hostOps1_sub hostOps1_fresh (VR m)),
   .host (hseg hostOps1_1 hostOps1_1_sub hostOps1_1_fresh (fun c => StableHlo.after hostOps1 (VR m c))),
   .host (hseg hostOps1_2 hostOps1_2_sub hostOps1_2_fresh (fun c => StableHlo.after hostOps1_1 (StableHlo.after hostOps1 (VR m c)))),
   .host (hseg hostOps1_3 hostOps1_3_sub hostOps1_3_fresh (fun c => StableHlo.after hostOps1_2 (StableHlo.after hostOps1_1 (StableHlo.after hostOps1 (VR m c)))))]

set_option backward.isDefEq.respectTransparency.types false in
/-- At the compiled mesh, for any float values, from any memory with zero counters: every weakly fair execution of @main
    terminates, and every final state has every unscoped buffer at what the host operations after the region compute from
    the buffers the region left. -/
theorem run_main : θ_run defs (onTc (τ := τ) (main (F := F))) (s₀ m ρ)
    (fun r => ∀ c : Dev nD, ∀ b ∈ Pipeline.ucRefs τ sig, r.2.mem ((c : Dev nD), b) = VF m c b) :=
  Pipeline.θ_run_regions_kit (pcfgs (F := F)) adm (dats m) () cellOf_inj EP defs₀ Variants.none L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (VF m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = VF m c b)
    (hfin := fun c s' => by
      unfold StableHlo.held
      iintro ⟨Hh, HSI⟩
      imodintro
      iapply (pointsTo_read_all (Pipeline.ucRefs τ sig) (fun b => (((c : Dev nD), b) : Loc nD τ sig)) (VF m c) s')
      isplitl [Hh] <;> iassumption)
    (hQ := fun _ h => h)

end Cert.KernelIdeal.Hand

end
-- ==== Proof.IdealKeeps.lean ====
/-
  No host operation of the program writes an argument.

  Before the call one operation converts the labels to floats and writes the converted array only; after the call each
  operation writes the one value it defines. Listing, stretch by stretch, the values the operations define shows that the
  two arguments are not among them, so each argument's buffer holds at the end what it held at the start.
-/
import proofs.«128781_j57904749084751_1_alg».proof.Proof.Gen.KernelIdeal.Launch
import Idealize.ShloMosaic.Lib.StableHlo.Run

noncomputable section

namespace Cert.KernelIdeal.Keeps

open Idealize.ShloMosaic Idealize.ShloMosaic.TcCoe Cert.KernelIdeal Cert.KernelIdeal.Gen

variable {F : FTy → Type} [FloatOps F]

/-- The values each stretch of host operations defines, stretch by stretch. -/
abbrev W0 : List (Ref sig .tc) := [main_v0]
abbrev W1 : List (Ref sig .tc) :=
  [main_v2, main_cst, main_v3, main_cst_0, main_v4, main_v5, main_cst_1, main_v6, main_v7, main_cst_2, main_v8, main_v9,
    main_cst_3, main_v10, main_v11, main_v12, main_v13, main_c, main_v14, main_v15, main_cst_4]
abbrev W1_1 : List (Ref sig .tc) := [main_call0_v0, main_call0_v1, main_v16]
abbrev W1_2 : List (Ref sig .tc) :=
  [main_cst_5, main_v17, main_cst_6, main_v18, main_v19, main_cst_7, main_v20, main_cst_8]
abbrev W1_3 : List (Ref sig .tc) := [main_v21]

/-- Each operation of a stretch writes one of the stretch's values. -/
theorem hostOps0_writes : (hostOps0 : List (HloOp τ sig (Elt F))).Forall fun op =>
    op.writes ⊆ (W0.map (Proc.devRef (τ := τ) .tc)).toFinset := by
  simp only [List.Forall]
  simp only [StableHlo.nullary_writes, StableHlo.unary_writes, StableHlo.binary_writes, StableHlo.ternary_writes,
      StableHlo.reshape_writes, Finset.singleton_subset_iff, List.mem_toFinset]
  exact List.mem_map_of_mem (by decide)

theorem hostOps1_writes : (hostOps1 : List (HloOp τ sig (Elt F))).Forall fun op =>
    op.writes ⊆ (W1.map (Proc.devRef (τ := τ) .tc)).toFinset := by
  simp only [List.Forall]
  and_intros <;>
    (simp only [StableHlo.nullary_writes, StableHlo.unary_writes, StableHlo.binary_writes, StableHlo.ternary_writes,
      StableHlo.reshape_writes, Finset.singleton_subset_iff, List.mem_toFinset]
     exact List.mem_map_of_mem (by decide))

theorem hostOps1_1_writes : (hostOps1_1 : List (HloOp τ sig (Elt F))).Forall fun op =>
    op.writes ⊆ (W1_1.map (Proc.devRef (τ := τ) .tc)).toFinset := by
  simp only [List.Forall]
  and_intros <;>
    (simp only [StableHlo.nullary_writes, StableHlo.unary_writes, StableHlo.binary_writes, StableHlo.ternary_writes,
      StableHlo.reshape_writes, Finset.singleton_subset_iff, List.mem_toFinset]
     exact List.mem_map_of_mem (by decide))

theorem hostOps1_2_writes : (hostOps1_2 : List (HloOp τ sig (Elt F))).Forall fun op =>
    op.writes ⊆ (W1_2.map (Proc.devRef (τ := τ) .tc)).toFinset := by
  simp only [List.Forall]
  and_intros <;>
    (simp only [StableHlo.nullary_writes, StableHlo.unary_writes, StableHlo.binary_writes, StableHlo.ternary_writes,
      StableHlo.reshape_writes, Finset.singleton_subset_iff, List.mem_toFinset]
     exact List.mem_map_of_mem (by decide))

theorem hostOps1_3_writes : (hostOps1_3 : List (HloOp τ sig (Elt F))).Forall fun op =>
    op.writes ⊆ (W1_3.map (Proc.devRef (τ := τ) .tc)).toFinset := by
  simp only [List.Forall]
  simp only [StableHlo.nullary_writes, StableHlo.unary_writes, StableHlo.binary_writes, StableHlo.ternary_writes,
      StableHlo.reshape_writes, Finset.singleton_subset_iff, List.mem_toFinset]
  exact List.mem_map_of_mem (by decide)

/-- A value the operation before the call does not define is unchanged by it. -/
theorem keeps0 (X : Valuation τ sig (Elt F)) (r : Ref sig .tc) (h : r ∉ W0) :
    StableHlo.after hostOps0 X (Proc.devRef .tc r) = X (Proc.devRef .tc r) :=
  StableHlo.after_of_writes_sub hostOps0 _ hostOps0_writes h

/-- A value none of the operations after the call defines is unchanged by them. -/
theorem tail_keeps (X : Valuation τ sig (Elt F)) (r : Ref sig .tc) (h1 : r ∉ W1) (h2 : r ∉ W1_1) (h3 : r ∉ W1_2)
    (h4 : r ∉ W1_3) :
    StableHlo.after hostOps1_3 (StableHlo.after hostOps1_2 (StableHlo.after hostOps1_1 (StableHlo.after hostOps1 X)))
        (Proc.devRef .tc r) = X (Proc.devRef .tc r) :=
  (StableHlo.after_of_writes_sub hostOps1_3 _ hostOps1_3_writes h4).trans <|
    (StableHlo.after_of_writes_sub hostOps1_2 _ hostOps1_2_writes h3).trans <|
      (StableHlo.after_of_writes_sub hostOps1_1 _ hostOps1_1_writes h2).trans <|
        StableHlo.after_of_writes_sub hostOps1 _ hostOps1_writes h1

theorem keeps0_arg0 (X : Valuation τ sig (Elt F)) :
    StableHlo.after hostOps0 X (Proc.devRef .tc main_arg0) = X (Proc.devRef .tc main_arg0) :=
  keeps0 X main_arg0 (by decide)

theorem keeps0_arg1 (X : Valuation τ sig (Elt F)) :
    StableHlo.after hostOps0 X (Proc.devRef .tc main_arg1) = X (Proc.devRef .tc main_arg1) :=
  keeps0 X main_arg1 (by decide)

theorem tail_keeps_arg0 (X : Valuation τ sig (Elt F)) :
    StableHlo.after hostOps1_3 (StableHlo.after hostOps1_2 (StableHlo.after hostOps1_1 (StableHlo.after hostOps1 X)))
        (Proc.devRef .tc main_arg0) = X (Proc.devRef .tc main_arg0) :=
  tail_keeps X main_arg0 (by decide) (by decide) (by decide) (by decide)

theorem tail_keeps_arg1 (X : Valuation τ sig (Elt F)) :
    StableHlo.after hostOps1_3 (StableHlo.after hostOps1_2 (StableHlo.after hostOps1_1 (StableHlo.after hostOps1 X)))
        (Proc.devRef .tc main_arg1) = X (Proc.devRef .tc main_arg1) :=
  tail_keeps X main_arg1 (by decide) (by decide) (by decide) (by decide)

end Cert.KernelIdeal.Keeps

end
-- ==== Proof.IdealFrame.lean ====
import proofs.«128781_j57904749084751_1_alg».proof.Proof.Gen.KernelIdeal.Launch
import proofs.«128781_j57904749084751_1_alg».proof.Proof.Gen.KernelIdeal.Skeleton
import proofs.«128781_j57904749084751_1_alg».proof.Proof.Gen.KernelIdeal.Points
import proofs.«128781_j57904749084751_1_alg».proof.Proof.IdealLaunch
import proofs.«128781_j57904749084751_1_alg».proof.Proof.IdealKeeps
import Idealize.ShloMosaic.Lib.Pipeline.FrameBody
import Idealize.ShloMosaic.Lib.Pipeline.FrameSuffix
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame: no host operation and no write-back touches an argument array -/

theorem mem_arg0 : Proc.devRef (τ := τ) .tc main_arg0 ∈ Pipeline.ucRefs τ sig := by decide
theorem mem_arg1 : Proc.devRef (τ := τ) .tc main_arg1 ∈ Pipeline.ucRefs τ sig := by decide
theorem mem_v21 : Proc.devRef (τ := τ) .tc main_v21 ∈ Pipeline.ucRefs τ sig := by decide

/-- The score array ends as launched: the region only reads it, and no host operation writes it. -/
theorem VF_arg0 (c : Dev nD) : VF m c (Proc.devRef .tc main_arg0) = m ((c.tc : Thread nD τ).loc main_arg0) :=
  (Keeps.tail_keeps_arg0 (VR m c)).trans ((VR_of_ne m c main_arg0 (by decide)).trans (Keeps.keeps0_arg0 (W0 m c)))

/-- The label array ends as launched. -/
theorem VF_arg1 (c : Dev nD) : VF m c (Proc.devRef .tc main_arg1) = m ((c.tc : Thread nD τ).loc main_arg1) :=
  (Keeps.tail_keeps_arg1 (VR m c)).trans ((VR_of_ne m c main_arg1 (by decide)).trans (Keeps.keeps0_arg1 (W0 m c)))

/-- Every weakly fair execution terminates, nothing faulting, with the result at the final valuation and both argument
    arrays unchanged. -/
theorem run_result : θ_run defs (onTc (τ := τ) (main (F := F))) ⟨m, fun _ => 0, ρ⟩ (fun r => ∀ c : Dev nD,
      r.2.mem ((c.tc : Thread nD τ).loc main_v21) = VF m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ mem_v21, (h c _ mem_arg0).trans (VF_arg0 m c), (h c _ mem_arg1).trans (VF_arg1 m c)⟩)
    (run_main m ρ)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.KernelIdeal.Hand

end
-- ==== Proof.Tail.lean ====
/-
  The operations both programs run from the per-row pair sum `rs` and the per-row pair count `np` to the result.

  A row is valid when its pair count is positive. A valid row's loss is its pair sum divided by max(pair count, 1);
  the result is the sum of the valid rows' losses divided by max(number of valid rows, 1), and 0 when no row is valid.
  The number of valid rows is counted in 32-bit integers (the sum of the 0/1 words of the comparison) and then read
  as a float.
-/
import Idealize.ShloMosaic.PureOps
import Idealize.ShloMosaic.PureOps.Ideal

noncomputable section

namespace Cert.Spec

open Idealize.ShloMosaic

/-- From the row sums `rs` and the pair counts `np` (32 rows) to the scalar result. The four side conditions are the
    shape facts the broadcast, the zero-extension and the two reductions take; they are arguments so that each
    program's own facts can be passed (a proof of a proposition is irrelevant to the value). -/
def tail (hb : (⟨0, ![]⟩ : Shape).BroadcastsInDim ⟨1, ![32]⟩ (![] : Fin 0 → Fin (⟨1, ![32]⟩ : Shape).rank))
    (hlt : 1 < 32) (hr : (⟨1, ![32]⟩ : Shape).ReducesTo [0] ⟨0, ![]⟩) (h0 : 0 < (⟨0, ![]⟩ : Shape).numel)
    (rs np : FVec Ideal ⟨1, ![32]⟩ .f32) : FVec Ideal ⟨0, ![]⟩ .f32 :=
  -- the scalars 0.0 and 1.0
  let zero : FVec Ideal ⟨0, ![]⟩ .f32 := constant (F := Ideal) ⟨0, ![]⟩ .f32 0x00000000#32
  let unit : FVec Ideal ⟨0, ![]⟩ .f32 := constant (F := Ideal) ⟨0, ![]⟩ .f32 0x3F800000#32
  -- valid(b) : np(b) > 0
  let valid : IVec ⟨1, ![32]⟩ 1 := cmpf (F := Ideal) .ogt np (broadcastInDim ⟨1, ![32]⟩ ![] hb zero)
  -- rowLoss(b) = rs(b) / max(np(b), 1)
  let rowLoss : FVec Ideal ⟨1, ![32]⟩ .f32 :=
    Host.divf (F := Ideal) rs (maximumf (F := Ideal) np (broadcastInDim ⟨1, ![32]⟩ ![] hb unit))
  -- nValid = the number of valid rows, summed as 32-bit integers, then read as a float
  let nValid : FVec Ideal ⟨0, ![]⟩ .f32 :=
    sitofp (F := Ideal) .f32 (Host.reduce IntOp.addi (extui 32 valid hlt) (constantI ⟨0, ![]⟩ 32 0#32) hr h0)
  -- kept(b) = rowLoss(b) on a valid row, 0 elsewhere
  let kept : FVec Ideal ⟨1, ![32]⟩ .f32 := select valid rowLoss (broadcastInDim ⟨1, ![32]⟩ ![] hb (id zero))
  -- total = (Σ_b kept(b)) / max(nValid, 1)
  let total : FVec Ideal ⟨0, ![]⟩ .f32 :=
    Host.divf (F := Ideal) (Host.reduceAdd (F := Ideal) kept zero hr h0) (maximumf (F := Ideal) nValid unit)
  -- the result: total when some row is valid, else 0
  select (cmpf (F := Ideal) .ogt nValid zero) total zero

end Cert.Spec

end
-- ==== Proof.Spec.lean ====
/-
  The quantities both programs compute, as functions of the score array `s` and of the label array read as
  extended reals `lf` (each entry 0 or 1 under the precondition).

  For a row `b`: the hinge of the ordered pair (i, j) is max((c - s(b,i)) + s(b,j), 0) with c the f32 word of 0.1;
  the pair sum of the row adds the hinge of every pair weighted by lf(b,i)·(1 - lf(b,j)), which for 0/1 labels keeps
  exactly the pairs (positive i, negative j); the number of such pairs is (Σ_j lf(b,j))·(Σ_j (1 - lf(b,j))).
-/
import Idealize.ShloMosaic.PureOps.Ideal
import Idealize.ShloMosaic.Lib.ValueIdx

noncomputable section

namespace Cert.Spec

open Idealize.ShloMosaic Idealize.ShloMosaic.ValueIdx

/-- The shape of the score and label arrays: 32 rows of 2048 entries. -/
abbrev Sc : Shape := ⟨2, ![32, 2048]⟩

/-- The margin: the f32 word of 0.1, read exactly. -/
def margin : EReal := Ideal.ofBits .f32 0x3DCCCCCD#32

/-- The f32 word of 1.0, read exactly. -/
def one : EReal := Ideal.ofBits .f32 0x3F800000#32

/-- The hinge of the ordered pair (i, j) of row b. -/
def hinge (s : Sc.Idx → EReal) (b : Fin 32) (i j : Fin 2048) : EReal :=
  max ((margin - s (ix2 b i)) + s (ix2 b j)) 0

/-- The weight of the pair (i, j) of row b: lf(b,i)·(1 - lf(b,j)). -/
def weight (lf : Sc.Idx → EReal) (b : Fin 32) (i j : Fin 2048) : EReal :=
  lf (ix2 b i) * (one - lf (ix2 b j))

/-- The weighted sum of the hinges of all ordered pairs of row b. -/
def pairSum (s lf : Sc.Idx → EReal) (b : Fin 32) : EReal :=
  ∑ i : Fin 2048, ∑ j : Fin 2048, hinge s b i j * weight lf b i j

/-- The number of (positive, negative) pairs of row b: (Σ_j lf(b,j))·(Σ_j (1 - lf(b,j))). -/
def nPairs (lf : Sc.Idx → EReal) (b : Fin 32) : EReal :=
  (∑ j : Fin 2048, lf (ix2 b j)) * (∑ j : Fin 2048, (one - lf (ix2 b j)))

end Cert.Spec

end
-- ==== Proof.HostCounts.lean ====
/-
  The host operations of the kernel program around the call, read at an index.

  With lf the float labels (a 32 × 2048 array): the program sums each row of lf, sums each row of 1 − lf, and multiplies
  the two sums; both reductions start from zero, so at row b the product is (Σ_j lf(b,j)) · (Σ_j (1 − lf(b,j))), the
  number of (positive, negative) pairs of the row. The call's 32 × 1 result is reshaped to 32 entries, which reads
  entry (b, 0) at b.
-/
import proofs.«128781_j57904749084751_1_alg».proof.Proof.Gen.KernelIdeal
import proofs.«128781_j57904749084751_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.HostCounts

open Idealize.ShloMosaic Idealize.ShloMosaic.ValueIdx Cert.KernelIdeal
open scoped BigOperators

/-- Summing a 32 × 2048 array over its second axis: the entry b of the result collects the entries (b, j). -/
theorem liftRow (h : S32x2048.Reduces [1] S32) (b : Fin 32) (j : Fin 2048) :
    h.lift (ix1 b) j = ix2 b j := by
  funext c
  match c with
  | ⟨0, _⟩ => rfl
  | ⟨1, _⟩ => rfl

/-- A row reduction from the zero word: at row b, the sum of the row. -/
theorem rowSum (x : S32x2048.Idx → EReal) (h : S32x2048.ReducesTo [1] S32) (hu : 0 < S_.numel) (b : Fin 32) :
    Host.reduceAdd (F := Ideal) (φ := .f32) x (constant (F := Ideal) S_ .f32 0x00000000#32) h hu (ix1 b)
      = ∑ j : Fin 2048, x (ix2 b j) := by
  have hr : S32x2048.Reduces [1] S32 := by decide
  rw [hostReduceAdd_apply, Ideal.hostReduceAdd_single h hr, constant_apply, Ideal.ofBits_zero_f32, zero_add]
  refine Finset.sum_congr rfl fun (j : Fin 2048) _ => ?_
  rw [liftRow]

/-- The product of the two row sums at row b is the number of (positive, negative) pairs of the row. -/
theorem kernel_nPairs (lf : S32x2048.Idx → EReal) (h : S32x2048.ReducesTo [1] S32) (hu : 0 < S_.numel)
    (hb : S_.BroadcastsInDim S32x2048 (![] : Fin 0 → Fin S32x2048.rank)) (b : Fin 32) :
    mulf (Host.reduceAdd (F := Ideal) (φ := .f32) lf (constant (F := Ideal) S_ .f32 0x00000000#32) h hu)
        (Host.reduceAdd (F := Ideal) (φ := .f32)
          (subf (broadcastInDim S32x2048 ![] hb (constant (F := Ideal) S_ .f32 0x3F800000#32)) lf)
          (constant (F := Ideal) S_ .f32 0x00000000#32) h hu) (ix1 b)
      = Cert.Spec.nPairs lf b := by
  rw [mulf_apply, rowSum, rowSum]
  rfl

/-- A 32 × 1 array reshaped to 32 entries reads (b, 0) at b. -/
theorem kernel_reshape (out : S32x1.Idx → EReal) (h : S32x1.ShapeCasts S32) (b : Fin 32) :
    shapeCast S32 out h (ix1 b) = out (ix2 b 0) :=
  shapeCast_apply out h _ _ (by
    rw [Shape.rowMajor_val_two, Shape.rowMajor_val_one]
    show b.val * 1 + 0 = b.val
    omega)

/-- The same with the result shape spelt as the program's reshape spells it, the shape of the value it defines. -/
theorem kernel_reshape_ref (out : S32x1.Idx → EReal) (h : S32x1.ShapeCasts S32) (b : Fin 32) :
    shapeCast (main_v2 : Ref sig .tc).ty.shape out h (ix1 b) = out (ix2 b 0) :=
  kernel_reshape out h b

end Cert.HostCounts

end
-- ==== Proof.IdealTail.lean ====
/-
  The kernel program's host operations after the call, run on the buffers.

  They reshape the call's 32 × 1 result to 32 entries, form the product of the two row sums of the float labels, and run
  the tail both programs share; so the result's buffer ends holding the shared tail applied to the reshaped call result
  and to that product.
-/
import proofs.«128781_j57904749084751_1_alg».proof.Proof.Gen.KernelIdeal.Launch
import proofs.«128781_j57904749084751_1_alg».proof.Proof.Tail
import proofs.«128781_j57904749084751_1_alg».proof.Proof.HostCounts
import Idealize.ShloMosaic.Lib.StableHlo.Run

noncomputable section

namespace Cert.KernelIdeal.TailRead

open Idealize.ShloMosaic Idealize.ShloMosaic.TcCoe Idealize.ShloMosaic.ValueIdx Cert.KernelIdeal Cert.KernelIdeal.Gen

/-- What the operations after the call leave in the result's buffer: the shared tail applied to the reshaped call
    result and to the product of the two row sums of the float labels. -/
theorem tail_result (X : Valuation τ sig (Elt Ideal)) :
    StableHlo.after hostOps1_3 (StableHlo.after hostOps1_2 (StableHlo.after hostOps1_1 (StableHlo.after hostOps1 X)))
        (Proc.devRef .tc main_v21)
      = Cert.Spec.tail bcast_S_S32 natLt_1_32 reducesTo_S32_S_d0 h_S_
          (shapeCast S32 (X (Proc.devRef .tc main_v1) : S32x1.Idx → EReal) shapeCasts_S32x1_S32)
          (mulf
            (Host.reduceAdd (F := Ideal) (φ := .f32) (X (Proc.devRef .tc main_v0) : S32x2048.Idx → EReal)
              (constant (F := Ideal) S_ .f32 0x00000000#32) reducesTo_S32x2048_S32_d1 h_S_)
            (Host.reduceAdd (F := Ideal) (φ := .f32)
              (subf (broadcastInDim S32x2048 ![] bcast_S_S32x2048 (constant (F := Ideal) S_ .f32 0x3F800000#32))
                (X (Proc.devRef .tc main_v0) : S32x2048.Idx → EReal))
              (constant (F := Ideal) S_ .f32 0x00000000#32) reducesTo_S32x2048_S32_d1 h_S_)) := by
  simp only [hostOps1, hostOps1_1, hostOps1_2, hostOps1_3]
  after_results_simp
  rfl

/-- The same with the two arguments of the tail named: if the call's result holds rsum(b) at (b, 0), the result is the
    shared tail of the row sums b ↦ rsum(b) and the pair counts b ↦ (Σ_j lf(b,j))·(Σ_j (1 − lf(b,j))), lf being the
    float labels as the call finds them. -/
theorem tail_result_spec (X : Valuation τ sig (Elt Ideal)) (rsum : Fin 32 → EReal)
    (hout : ∀ b : Fin 32, (X (Proc.devRef .tc main_v1) : S32x1.Idx → EReal) (ix2 b 0) = rsum b) :
    StableHlo.after hostOps1_3 (StableHlo.after hostOps1_2 (StableHlo.after hostOps1_1 (StableHlo.after hostOps1 X)))
        (Proc.devRef .tc main_v21)
      = Cert.Spec.tail bcast_S_S32 natLt_1_32 reducesTo_S32_S_d0 h_S_ (fun i => rsum (i 0))
          (fun i => Cert.Spec.nPairs (X (Proc.devRef .tc main_v0) : S32x2048.Idx → EReal) (i 0)) := by
  rw [tail_result]
  refine congrArg₂ (Cert.Spec.tail bcast_S_S32 natLt_1_32 reducesTo_S32_S_d0 h_S_) ?_ ?_
  · funext i
    obtain ⟨b, rfl⟩ : ∃ b, i = ix1 b := ⟨i 0, eq_ix1 i⟩
    exact (Cert.HostCounts.kernel_reshape _ _ b).trans (hout b)
  · funext i
    obtain ⟨b, rfl⟩ : ∃ b, i = ix1 b := ⟨i 0, eq_ix1 i⟩
    exact Cert.HostCounts.kernel_nPairs _ _ _ _ b

end Cert.KernelIdeal.TailRead

end
-- ==== Proof.TileSum.lean ====
/-
  The arithmetic of one grid step, read at an index.

  For one tile pair the step takes four 8 × 256 blocks: the scores of the tile of i (x5) and of the tile of j (x6), and
  the float labels of the two tiles (x7, x9). It forms, for every row p and every pair (i, j) of the two tiles,
  max((c − x5(p,i)) + x6(p,j), 0) · (x7(p,i) · (1 − x9(p,j))), sums over j, then over i, and adds the result to the
  running total x32(p). The reshapes and broadcasts in between only move values around, and the two reductions start
  from zero, so at row p the step returns x32(p) plus the double sum.
-/
import proofs.«128781_j57904749084751_1_alg».proof.Proof.Gen.KernelIdeal.Skeleton
import proofs.«128781_j57904749084751_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.TileSum

open Idealize.ShloMosaic Idealize.ShloMosaic.ValueIdx Cert.KernelIdeal
open scoped BigOperators

variable {α : Type}

/-! ## Where each layout operation reads its operand -/

/-- Summing an 8 × 256 × 256 array over its last axis: the entry (p, i) of the result collects the entries (p, i, j). -/
theorem lift2 (h : S8x256x256.Reduces [2] S8x256) (p : Fin 8) (i j : Fin 256) :
    h.lift (ix2 p i) j = ix3 p i j := by
  funext c
  match c with
  | ⟨0, _⟩ => rfl
  | ⟨1, _⟩ => rfl
  | ⟨2, _⟩ => rfl

/-- Summing an 8 × 256 × 1 array over its middle axis: the entry (p, u) of the result collects the entries (p, i, u). -/
theorem lift1 (h : S8x256x1.Reduces [1] S8x1) (p : Fin 8) (u : Fin 1) (i : Fin 256) :
    h.lift (ix2 p u) i = ix3 p i u := by
  funext c
  match c with
  | ⟨0, _⟩ => rfl
  | ⟨1, _⟩ => rfl
  | ⟨2, _⟩ => rfl

/-- An 8 × 256 array viewed as 8 × 256 × 1 reads (p, i) at (p, i, u). -/
theorem cast_col (x : S8x256.Idx → α) (h : S8x256.ShapeCasts S8x256x1) (p : Fin 8) (i : Fin 256) (u : Fin 1) :
    shapeCast S8x256x1 x h (ix3 p i u) = x (ix2 p i) :=
  shapeCast_apply x h _ _ (by
    have hu : u.val = 0 := by omega
    rw [Shape.rowMajor_val_three, Shape.rowMajor_val_two]
    show p.val * 256 + i.val = (p.val * 256 + i.val) * 1 + u.val
    omega)

/-- An 8 × 256 array viewed as 8 × 1 × 256 reads (p, j) at (p, u, j). -/
theorem cast_row (x : S8x256.Idx → α) (h : S8x256.ShapeCasts S8x1x256) (p : Fin 8) (u : Fin 1) (j : Fin 256) :
    shapeCast S8x1x256 x h (ix3 p u j) = x (ix2 p j) :=
  shapeCast_apply x h _ _ (by
    have hu : u.val = 0 := by omega
    rw [Shape.rowMajor_val_three, Shape.rowMajor_val_two]
    show p.val * 256 + j.val = (p.val * 1 + u.val) * 256 + j.val
    omega)

/-- An 8 × 256 × 1 array broadcast along its last axis reads (p, i, 0) at (p, i, j). -/
theorem bcast_col (v : S8x256x1.Idx → α) (h : S8x256x1.Broadcasts S8x256x256) (p : Fin 8) (i j : Fin 256) :
    broadcastTo S8x256x256 v h (ix3 p i j) = v (ix3 p i (0 : Fin 1)) :=
  broadcastTo_apply v h _ _ fun a => match a with
    | ⟨0, _⟩ => rfl
    | ⟨1, _⟩ => rfl
    | ⟨2, _⟩ => rfl

/-- An 8 × 1 × 256 array broadcast along its middle axis reads (p, 0, j) at (p, i, j). -/
theorem bcast_row (v : S8x1x256.Idx → α) (h : S8x1x256.Broadcasts S8x256x256) (p : Fin 8) (i j : Fin 256) :
    broadcastTo S8x256x256 v h (ix3 p i j) = v (ix3 p (0 : Fin 1) j) :=
  broadcastTo_apply v h _ _ fun a => match a with
    | ⟨0, _⟩ => rfl
    | ⟨1, _⟩ => rfl
    | ⟨2, _⟩ => rfl

/-! ## The three values the step stores or carries -/

/-- The running total as it is written back: a reshape to the same shape changes nothing. -/
theorem pay1_eq (v : S8x1.Idx → EReal) : Gen.k0_pay1 (F := Ideal) v = v := by
  unfold Gen.k0_pay1
  exact shapeCast_self v _

theorem pay1_apply (v : S8x1.Idx → EReal) (j : S8x1.Idx) : Gen.k0_pay1 (F := Ideal) v j = v j := by
  rw [pay1_eq]

/-- The value the first tile pair of a row block starts from: zero everywhere. -/
theorem pay2_apply (j : S8x1.Idx) : Gen.k0_pay2 (F := Ideal) j = 0 := by
  unfold Gen.k0_pay2
  rw [shapeCast_self, broadcast_apply]
  exact Ideal.ofBits_zero_f32

/-- One step: the running total of row p plus the sum, over the pairs (i, j) of the two tiles, of hinge times weight. -/
theorem pay3_apply (x5 x6 x7 x9 : S8x256.Idx → EReal) (x32 : S8x1.Idx → EReal) (p : Fin 8) :
    Gen.k0_pay3 (F := Ideal) x5 x6 x7 x9 x32 (ix2 p 0)
      = x32 (ix2 p 0) + ∑ i : Fin 256, ∑ j : Fin 256,
          max ((Cert.Spec.margin - x5 (ix2 p i)) + x6 (ix2 p j)) 0
            * (x7 (ix2 p i) * (Cert.Spec.one - x9 (ix2 p j))) := by
  unfold Gen.k0_pay3
  dsimp only
  rw [addf_apply, shapeCast_shapeCast]
  refine congrArg (x32 (ix2 p 0) + ·) ?_
  -- the outer reduction, over i
  refine (Ideal.multiReduction_add_single _ _ _ _ _ _).trans ?_
  refine Finset.sum_congr rfl fun (i : Fin 256) _ => ?_
  rw [lift1, cast_col]
  -- the inner reduction, over j
  refine (Ideal.multiReduction_add_single _ _ _ _ _ _).trans ?_
  refine Finset.sum_congr rfl fun (j : Fin 256) _ => ?_
  rw [lift2]
  -- one entry of the 8 × 256 × 256 product
  simp only [mulf_apply, maximumf_apply, addf_apply, subf_apply, broadcast_apply, bcast_col, bcast_row, cast_col,
    cast_row, shapeCast_self]
  rw [show (FloatOps.ofBits FTy.f32 0#32 : Ideal .f32) = (0 : EReal) from Ideal.ofBits_zero_f32]
  rfl

end Cert.TileSum

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.Accum.lean ====
/-
  The pair sum of a row, taken tile by tile.

  A row has 2048 positions, cut into 8 tiles of 256: position 256·ii + i is position i of tile ii. The pair sum of the
  row is a double sum over (i, j); cutting both indices gives 8 × 8 tile parts, one per pair of tiles (ii, jj), and
  the pair sum is the sum of the 64 parts in any order, because addition of extended reals is commutative and
  associative. The running total below adds the parts in row-major order of (ii, jj).
-/
import proofs.«128781_j57904749084751_1_alg».proof.Proof.Spec
import proofs.«128781_j57904749084751_1_alg».proof.Proof.LibSums

noncomputable section

namespace Cert.Accum

open Idealize.ShloMosaic Idealize.ShloMosaic.ValueIdx Cert.Spec
open scoped BigOperators

/-- The part of the pair sum of row b that comes from the pairs (i, j) with i in tile ii and j in tile jj. -/
def tilePart (s lf : Sc.Idx → EReal) (b : Fin 32) (ii jj : Fin 8) : EReal :=
  ∑ i : Fin 256, ∑ j : Fin 256,
    hinge s b ⟨256 * ii.val + i.val, by omega⟩ ⟨256 * jj.val + j.val, by omega⟩ *
      weight lf b ⟨256 * ii.val + i.val, by omega⟩ ⟨256 * jj.val + j.val, by omega⟩

/-- The running total after k tile parts, the pairs of tiles taken in row-major order: part number k is that of
    (k / 8 % 8, k % 8). -/
def acc (s lf : Sc.Idx → EReal) (b : Fin 32) : ℕ → EReal
  | 0 => (0 : EReal)
  | k + 1 => acc s lf b k +
      tilePart s lf b ⟨k / 8 % 8, Nat.mod_lt _ (by norm_num)⟩ ⟨k % 8, Nat.mod_lt _ (by norm_num)⟩

/-- Before any part the total is zero. -/
theorem acc_zero (s lf : Sc.Idx → EReal) (b : Fin 32) : acc s lf b 0 = (0 : EReal) := rfl

/-- One step of the running total. -/
theorem acc_succ (s lf : Sc.Idx → EReal) (b : Fin 32) (k : ℕ) (_hk : k < 64) :
    acc s lf b (k + 1) = acc s lf b k +
      tilePart s lf b ⟨k / 8 % 8, Nat.mod_lt _ (by norm_num)⟩ ⟨k % 8, Nat.mod_lt _ (by norm_num)⟩ := rfl

/-- The running total is the sum of the parts taken so far. -/
theorem acc_eq_sum (s lf : Sc.Idx → EReal) (b : Fin 32) (n : ℕ) :
    acc s lf b n = ∑ k ∈ Finset.range n,
      tilePart s lf b ⟨k / 8 % 8, Nat.mod_lt _ (by norm_num)⟩ ⟨k % 8, Nat.mod_lt _ (by norm_num)⟩ := by
  induction n with
  | zero => rfl
  | succ n ih => rw [Finset.sum_range_succ, ← ih]; rfl

/-- A sum over the 2048 positions of a row is the sum over the 8 tiles of the sums over each tile's 256 positions. -/
theorem sum_row_tiles {M : Type} [AddCommMonoid M] (f : Fin 2048 → M) :
    ∑ u : Fin 2048, f u = ∑ ii : Fin 8, ∑ i : Fin 256, f ⟨256 * ii.val + i.val, by omega⟩ := by
  have h1 : ∑ u : Fin 2048, f u
      = ∑ v ∈ Finset.range (8 * 256), (fun n : ℕ => if h : n < 2048 then f ⟨n, h⟩ else 0) v := by
    rw [show (8 * 256 : ℕ) = 2048 from rfl, Finset.sum_range]
    refine Finset.sum_congr rfl fun u _ => ?_
    simp only [dif_pos u.isLt]
  rw [h1, ← Cert.Sums.sum_tiles 8 256, Finset.sum_range]
  refine Finset.sum_congr rfl fun ii _ => Finset.sum_congr rfl fun i _ => ?_
  have h : ii.val * 256 + i.val < 2048 := by omega
  simp only [dif_pos h]
  congr 1
  exact Fin.ext (by simp only; omega)

/-- The 64 tile parts add up to the pair sum of the row. -/
theorem sum_tileParts (s lf : Sc.Idx → EReal) (b : Fin 32) :
    ∑ ii : Fin 8, ∑ jj : Fin 8, tilePart s lf b ii jj = pairSum s lf b := by
  unfold pairSum tilePart
  rw [sum_row_tiles]
  refine Finset.sum_congr rfl fun ii _ => ?_
  rw [Finset.sum_comm]
  refine Finset.sum_congr rfl fun i _ => ?_
  rw [sum_row_tiles]

/-- After all 64 parts the running total is the pair sum of the row. -/
theorem acc_full (s lf : Sc.Idx → EReal) (b : Fin 32) : acc s lf b 64 = pairSum s lf b := by
  rw [acc_eq_sum, ← sum_tileParts, show (64 : ℕ) = 8 * 8 from rfl, ← Cert.Sums.sum_tiles 8 8, Finset.sum_range]
  refine Finset.sum_congr rfl fun ii _ => Finset.sum_congr rfl fun jj _ => ?_
  congr 1 <;> exact Fin.ext (by simp only; omega)

end Cert.Accum

end
-- ==== Proof.IdealValue.lean ====
/-
  The value the call leaves in its result array.

  The grid has 4 × 8 × 8 points; point t = 64·bi + 8·ii + jj works on the row block bi (rows 8·bi … 8·bi + 7), on tile ii
  of the columns for the index i and on tile jj for the index j. Its four input blocks are the scores and the float
  labels of the two tiles; its step adds the tile pair's part of the pair sum to a running total, which starts from
  zero at the first point of a row block and is written to the result at the last one. So after the 64 points of row
  block bi the result's rows 8·bi … 8·bi + 7 hold the pair sums of those rows.
-/
import proofs.«128781_j57904749084751_1_alg».proof.Proof.IdealData
import proofs.«128781_j57904749084751_1_alg».proof.Proof.TileSum
import proofs.«128781_j57904749084751_1_alg».proof.Proof.Accum
import proofs.«128781_j57904749084751_1_alg».proof.Proof.Spec
import Idealize.ShloMosaic.Lib.Pipeline.Value

set_option maxRecDepth 16384

noncomputable section

namespace Cert.KernelIdeal.ValueLeg

open Cert.KernelIdeal Cert.KernelIdeal.Gen Cert.KernelIdeal.Hand
open Idealize.ShloMosaic Idealize.ShloMosaic.TcCoe Idealize.ShloMosaic.ValueIdx
open scoped BigOperators

variable (m : (ℓ : Loc nD τ sig) → Buf (Elt Ideal) ℓ)

/-- The grid has 256 points. -/
theorem lt256 (t : Fin cfg0.N) : t.val < 256 := lt_of_lt_of_eq t.isLt (show cfg0.N = 256 from N_0)

/-- The scores and the float labels as the call finds them. -/
abbrev sc (c : Dev nD) : S32x2048.Idx → EReal := V m c main_arg0
abbrev lfl (c : Dev nD) : S32x2048.Idx → EReal := V m c main_v0

/-! ## The blocks, read off the arrays -/

/-- The index maps, decided over the grid: point t = 64·bi + 8·ii + jj reads row block bi, and column tile ii through
    the row-tile windows, column tile jj through the column-tile windows; the result window is row block bi. -/
theorem idx_w0 : ∀ t : Fin cfg0.N, win0_0.index t (0 : Fin 2) = t.val / 64 ∧ win0_0.index t (1 : Fin 2) = t.val / 8 % 8 :=
  (by decide +kernel : ∀ t : Fin grid0.N, _)
theorem idx_w1 : ∀ t : Fin cfg0.N, win0_1.index t (0 : Fin 2) = t.val / 64 ∧ win0_1.index t (1 : Fin 2) = t.val % 8 :=
  (by decide +kernel : ∀ t : Fin grid0.N, _)
theorem idx_w2 : ∀ t : Fin cfg0.N, win0_2.index t (0 : Fin 2) = t.val / 64 ∧ win0_2.index t (1 : Fin 2) = t.val / 8 % 8 :=
  (by decide +kernel : ∀ t : Fin grid0.N, _)
theorem idx_w3 : ∀ t : Fin cfg0.N, win0_3.index t (0 : Fin 2) = t.val / 64 ∧ win0_3.index t (1 : Fin 2) = t.val % 8 :=
  (by decide +kernel : ∀ t : Fin grid0.N, _)
theorem idx_w4 : ∀ t : Fin cfg0.N, win0_4.index t (0 : Fin 2) = t.val / 64 ∧ win0_4.index t (1 : Fin 2) = 0 :=
  (by decide +kernel : ∀ t : Fin grid0.N, _)

/-- The scores of the tile of i. -/
theorem iblk0_apply (c : Dev nD) (t : Fin cfg0.N) (p : Fin 8) (i : Fin 256) :
    iblk m c 0 t (ix2 p i) = sc m c
      (ix2 ⟨8 * (t.val / 64) + p.val, by have := lt256 t; omega⟩ ⟨256 * (t.val / 8 % 8) + i.val, by omega⟩) := by
  obtain ⟨e0, e1⟩ := idx_w0 t
  unfold iblk
  show V m c main_arg0 (((cfg0.win 0).blk t).view.emb (ix2 p i)) = V m c main_arg0 _
  refine congrArg _ (funext fun a => Fin.ext ?_)
  match a with
  | ⟨0, _⟩ => show win0_0.index t (0 : Fin 2) * 8 + 1 * p.val = 8 * (t.val / 64) + p.val; omega
  | ⟨1, _⟩ => show win0_0.index t (1 : Fin 2) * 256 + 1 * i.val = 256 * (t.val / 8 % 8) + i.val; omega

/-- The scores of the tile of j. -/
theorem iblk1_apply (c : Dev nD) (t : Fin cfg0.N) (p : Fin 8) (j : Fin 256) :
    iblk m c 1 t (ix2 p j) = sc m c
      (ix2 ⟨8 * (t.val / 64) + p.val, by have := lt256 t; omega⟩ ⟨256 * (t.val % 8) + j.val, by omega⟩) := by
  obtain ⟨e0, e1⟩ := idx_w1 t
  unfold iblk
  show V m c main_arg0 (((cfg0.win 1).blk t).view.emb (ix2 p j)) = V m c main_arg0 _
  refine congrArg _ (funext fun a => Fin.ext ?_)
  match a with
  | ⟨0, _⟩ => show win0_1.index t (0 : Fin 2) * 8 + 1 * p.val = 8 * (t.val / 64) + p.val; omega
  | ⟨1, _⟩ => show win0_1.index t (1 : Fin 2) * 256 + 1 * j.val = 256 * (t.val % 8) + j.val; omega

/-- The float labels of the tile of i. -/
theorem iblk2_apply (c : Dev nD) (t : Fin cfg0.N) (p : Fin 8) (i : Fin 256) :
    iblk m c 2 t (ix2 p i) = lfl m c
      (ix2 ⟨8 * (t.val / 64) + p.val, by have := lt256 t; omega⟩ ⟨256 * (t.val / 8 % 8) + i.val, by omega⟩) := by
  obtain ⟨e0, e1⟩ := idx_w2 t
  unfold iblk
  show V m c main_v0 (((cfg0.win 2).blk t).view.emb (ix2 p i)) = V m c main_v0 _
  refine congrArg _ (funext fun a => Fin.ext ?_)
  match a with
  | ⟨0, _⟩ => show win0_2.index t (0 : Fin 2) * 8 + 1 * p.val = 8 * (t.val / 64) + p.val; omega
  | ⟨1, _⟩ => show win0_2.index t (1 : Fin 2) * 256 + 1 * i.val = 256 * (t.val / 8 % 8) + i.val; omega

/-- The float labels of the tile of j. -/
theorem iblk3_apply (c : Dev nD) (t : Fin cfg0.N) (p : Fin 8) (j : Fin 256) :
    iblk m c 3 t (ix2 p j) = lfl m c
      (ix2 ⟨8 * (t.val / 64) + p.val, by have := lt256 t; omega⟩ ⟨256 * (t.val % 8) + j.val, by omega⟩) := by
  obtain ⟨e0, e1⟩ := idx_w3 t
  unfold iblk
  show V m c main_v0 (((cfg0.win 3).blk t).view.emb (ix2 p j)) = V m c main_v0 _
  refine congrArg _ (funext fun a => Fin.ext ?_)
  match a with
  | ⟨0, _⟩ => show win0_3.index t (0 : Fin 2) * 8 + 1 * p.val = 8 * (t.val / 64) + p.val; omega
  | ⟨1, _⟩ => show win0_3.index t (1 : Fin 2) * 256 + 1 * j.val = 256 * (t.val % 8) + j.val; omega

/-! ## The running total -/

/-- Point number k of row block bi. -/
abbrev pt (bi : Fin 4) (k : ℕ) (hk : k < 64) : Fin cfg0.N :=
  ⟨64 * bi.val + k, by rw [show cfg0.N = 256 from N_0]; omega⟩

/-- One step at point k of row block bi, at row p of the block: the total it is given plus the part of the pair sum
    of row 8·bi + p that comes from the tile pair (k / 8 % 8, k % 8). -/
theorem step_apply (c : Dev nD) (bi : Fin 4) (k : ℕ) (hk : k < 64) (p : Fin 8) (x32 : S8x1.Idx → EReal) :
    k0_pay1 (F := Ideal) (k0_pay3 (F := Ideal) (iblk m c 0 (pt bi k hk)) (iblk m c 1 (pt bi k hk)) (iblk m c 2 (pt bi k hk))
        (iblk m c 3 (pt bi k hk)) x32) (ix2 p 0)
      = x32 (ix2 p 0) + Cert.Accum.tilePart (sc m c) (lfl m c) ⟨8 * bi.val + p.val, by omega⟩
          ⟨k / 8 % 8, Nat.mod_lt _ (by norm_num)⟩ ⟨k % 8, Nat.mod_lt _ (by norm_num)⟩ := by
  rw [Cert.TileSum.pay1_apply, Cert.TileSum.pay3_apply]
  refine congrArg (x32 (ix2 p 0) + ·) ?_
  unfold Cert.Accum.tilePart
  refine Finset.sum_congr rfl fun i _ => Finset.sum_congr rfl fun j _ => ?_
  rw [iblk0_apply, iblk1_apply, iblk2_apply, iblk3_apply]
  have hb : ∀ h, (⟨8 * ((pt bi k hk).val / 64) + p.val, h⟩ : Fin 32) = ⟨8 * bi.val + p.val, by omega⟩ :=
    fun h => Fin.ext (by show 8 * ((64 * bi.val + k) / 64) + p.val = 8 * bi.val + p.val; omega)
  have hi : ∀ h, (⟨256 * ((pt bi k hk).val / 8 % 8) + i.val, h⟩ : Fin 2048) = ⟨256 * (k / 8 % 8) + i.val, by omega⟩ :=
    fun h => Fin.ext (by show 256 * ((64 * bi.val + k) / 8 % 8) + i.val = 256 * (k / 8 % 8) + i.val; omega)
  have hj : ∀ h, (⟨256 * ((pt bi k hk).val % 8) + j.val, h⟩ : Fin 2048) = ⟨256 * (k % 8) + j.val, by omega⟩ :=
    fun h => Fin.ext (by show 256 * ((64 * bi.val + k) % 8) + j.val = 256 * (k % 8) + j.val; omega)
  rw [hb, hi, hj]
  rfl

/-- The running total does not depend on how the point's number is written. -/
theorem accAt_congr (c : Dev nD) {n n' : ℕ} (e : n = n') (h : n < cfg0.N) (h' : n' < cfg0.N) :
    accAt m c n h = accAt m c n' h' := by
  subst e; rfl

/-- After point k of row block bi, row p of the running total is the running total of the tile parts of row 8·bi + p
    after k + 1 parts. -/
theorem accAt_eq (c : Dev nD) (bi : Fin 4) (p : Fin 8) : ∀ (k : ℕ) (hk : k < 64),
    accAt m c (64 * bi.val + k) (pt bi k hk).isLt (ix2 p 0)
      = Cert.Accum.acc (sc m c) (lfl m c) ⟨8 * bi.val + p.val, by omega⟩ (k + 1)
  | 0, hk => by
    have h0 : (pt bi 0 hk).val % 64 = 0 := by show (64 * bi.val + 0) % 64 = 0; omega
    refine (congrFun (accAt_reset m c (pt bi 0 hk) h0) (ix2 p 0)).trans ?_
    rw [step_apply, Cert.TileSum.pay2_apply, Cert.Accum.acc_succ _ _ _ 0 (by norm_num), Cert.Accum.acc_zero]
  | k + 1, hk => by
    have h0 : ¬(pt bi (k + 1) hk).val % 64 = 0 := by show ¬(64 * bi.val + (k + 1)) % 64 = 0; omega
    refine (congrFun (accAt_step m c (pt bi (k + 1) hk) h0) (ix2 p 0)).trans ?_
    rw [step_apply, Cert.Accum.acc_succ _ _ _ (k + 1) hk]
    refine congrArg (· + _) ?_
    refine (congrFun (accAt_congr m c (show (pt bi (k + 1) hk).val - 1 = 64 * bi.val + k by
      show 64 * bi.val + (k + 1) - 1 = 64 * bi.val + k; omega) _ (pt bi k (by omega)).isLt) (ix2 p 0)).trans ?_
    exact accAt_eq c bi p k (by omega)

/-! ## The result array -/

/-- What the result array ends holding: at (r, 0) the pair sum of row r. -/
abbrev G (c : Dev nD) : S32x1.Idx → EReal := fun idx => Cert.Spec.pairSum (sc m c) (lfl m c) (idx 0)

/-- What the last point of a row block writes back is the block's rows of G. -/
theorem flushed_eq (c : Dev nD) (t : Fin cfg0.N) (hf : (cfg0.win 4).flush t = true) :
    (dats m 0 c).flushed 4 t = ((cfg0.win 4).blk t).view.read (Elt Ideal) (G m c) := by
  have h63 : t.val % 64 = 63 := (flush0_4 t).mp hf
  have hN := lt256 t
  obtain ⟨e0, e1⟩ := idx_w4 t
  show (cfg0.win 4).cut (grid0.coords t) ((dats m 0 c).after 4 t) = _
  rw [after4]
  funext j
  have hj0 : (j 0).val < 8 := (j 0).isLt
  have hj1 : (j 1).val < 1 := (j 1).isLt
  have hx : (cfg0.win 4).xinj (grid0.coords t) j = ix2 (⟨(j 0).val, hj0⟩ : Fin 8) (0 : Fin 1) :=
    funext fun a => Fin.ext (match a with
      | ⟨0, _⟩ => rfl
      | ⟨1, _⟩ => by show (j 1).val = 0; omega)
  show accAt m c t.val t.isLt ((cfg0.win 4).xinj (grid0.coords t) j) = G m c (((cfg0.win 4).blk t).view.emb j)
  rw [hx]
  have hbi : t.val / 64 < 4 := by omega
  refine (congrFun (accAt_congr m c (show t.val = 64 * (⟨t.val / 64, hbi⟩ : Fin 4).val + 63 by
    show t.val = 64 * (t.val / 64) + 63; omega) t.isLt (pt ⟨t.val / 64, hbi⟩ 63 (by norm_num)).isLt) _).trans ?_
  rw [accAt_eq m c ⟨t.val / 64, hbi⟩ ⟨(j 0).val, hj0⟩ 63 (by norm_num), Cert.Accum.acc_full]
  refine congrArg (Cert.Spec.pairSum (sc m c) (lfl m c)) (Fin.ext ?_)
  show 8 * (t.val / 64) + (j 0).val = win0_4.index t (0 : Fin 2) * 8 + 1 * (j 0).val
  omega

/-- Every entry of the result is in the block of the last point of its row block. -/
theorem cover (i : S32x1.Idx) :
    ∃ t : Fin cfg0.N, (cfg0.win 4).flush t = true ∧ i ∈ ((cfg0.win 4).blk t).view.set := by
  have hi0 : (i 0).val < 32 := (i 0).isLt
  have hi1 : (i 1).val < 1 := (i 1).isLt
  have hb : (i 0).val / 8 < 4 := by omega
  have key : ∀ t : Fin cfg0.N, t.val = 64 * ((i 0).val / 8) + 63 →
      (cfg0.win 4).flush t = true ∧ i ∈ ((cfg0.win 4).blk t).view.set := by
    intro t hv
    obtain ⟨e0, e1⟩ := idx_w4 t
    refine ⟨(flush0_4 t).mpr (by omega), ?_⟩
    show i ∈ ((View.whole main_v1).slice (win0_4.rect t)).set
    rw [View.set_slice_whole, Rect.mem_set_unit]
    intro a
    match a with
    | ⟨0, _⟩ =>
      show win0_4.index t (0 : Fin 2) * 8 ≤ (i 0).val ∧ (i 0).val < win0_4.index t (0 : Fin 2) * 8 + 8
      omega
    | ⟨1, _⟩ =>
      show win0_4.index t (1 : Fin 2) * 1 ≤ (i 1).val ∧ (i 1).val < win0_4.index t (1 : Fin 2) * 1 + 1
      omega
  exact ⟨pt ⟨(i 0).val / 8, hb⟩ 63 (by norm_num), key _ rfl⟩

/-- The result array after the call: the pair sum of each row. -/
theorem final_out (c : Dev nD) : (dats m 0 c).arrAt 4 cfg0.N = G m c :=
  (dats m 0 c).arrAt_eq_of_cover 4 (G m c) (flushed_eq m c) cover

theorem out_eq (c : Dev nD) (r : Fin 32) :
    ((dats m 0 c).arrAt 4 cfg0.N : S32x1.Idx → EReal) (ix2 r 0) = Cert.Spec.pairSum (sc m c) (lfl m c) r := by
  rw [final_out]

end Cert.KernelIdeal.ValueLeg

end
-- ==== Proof.RefProgram.lean ====
/-
  The reference program's run. Its @main is a straight line of 61 host operations; run from any memory, every
  execution ends with the result buffer holding the composed value of those operations on the two arguments, and
  the arguments unchanged. The composed value is written here in stages:

    pos(b,i), neg(b,i)   the label of (b,i) is 1, is 0 (one bit each);
    hinge(b,i,j)         max((c - s(b,i)) + s(b,j), 0), c the constant 0.1;
    masked(b,i,j)        hinge(b,i,j) where pos(b,i) and neg(b,j), 0 elsewhere;
    rowSum(b)            the sum of masked(b,i,j) over all (i,j);
    count m (b)          the 32-bit integer sum over j of the bits m(b,j);
    pairCount(b)         count pos (b) times count neg (b), each read as a float;
    finish rs np         the closing operations (valid rows, row losses, their mean), as in the module Tail.
-/
import proofs.«128781_j57904749084751_1_alg».proof.Proof.Gen.ReferenceIdeal
import Idealize.ShloMosaic.Lib.StableHlo.Run

noncomputable section

namespace Cert.RefProgram

open Cert.ReferenceIdeal Cert.ReferenceIdeal.Gen Idealize.ShloMosaic Idealize.ShloMosaic.TcCoe Idealize.SL.Sem Idealize.ShloMosaic.StableHlo

variable {F : FTy → Type} [FloatOps F]

/-- The straight line @main runs: its 61 operations in program order, each of the three selecting functions it calls
    written out where it is called (a constant passed through unchanged, spread to the operand's shape, then the select). -/
abbrev ops : List (HloOp τ sig (Elt F)) :=
  [ nullary main_c (constantI S_ 32 1#32),
    unary main_c main_v0 (broadcastInDim S32x2048 ![] bcast_S_S32x2048 : (⟨S_, .i32⟩ : BufTy).Contents (Elt F) → (⟨S32x2048, .i32⟩ : BufTy).Contents (Elt F)),
    binary main_arg1 main_v0 main_v1 (cmpi .eq : (⟨S32x2048, .i32⟩ : BufTy).Contents (Elt F) → (⟨S32x2048, .i32⟩ : BufTy).Contents (Elt F) → (⟨S32x2048, .i1⟩ : BufTy).Contents (Elt F)),
    nullary main_c_0 (constantI S_ 32 0#32),
    unary main_c_0 main_v2 (broadcastInDim S32x2048 ![] bcast_S_S32x2048 : (⟨S_, .i32⟩ : BufTy).Contents (Elt F) → (⟨S32x2048, .i32⟩ : BufTy).Contents (Elt F)),
    binary main_arg1 main_v2 main_v3 (cmpi .eq : (⟨S32x2048, .i32⟩ : BufTy).Contents (Elt F) → (⟨S32x2048, .i32⟩ : BufTy).Contents (Elt F) → (⟨S32x2048, .i1⟩ : BufTy).Contents (Elt F)),
    unary main_arg0 main_v4 (broadcastInDim S32x2048x1 ![0, 1] bcast_S32x2048_S32x2048x1_0_1 : (⟨S32x2048, .f32⟩ : BufTy).Contents (Elt F) → (⟨S32x2048x1, .f32⟩ : BufTy).Contents (Elt F)),
    nullary main_cst (constant S_ .f32 0x3DCCCCCD#32),
    unary main_cst main_v5 (broadcastInDim S32x2048x1 ![] bcast_S_S32x2048x1 : (⟨S_, .f32⟩ : BufTy).Contents (Elt F) → (⟨S32x2048x1, .f32⟩ : BufTy).Contents (Elt F)),
    binary main_v5 main_v4 main_v6 (subf : (⟨S32x2048x1, .f32⟩ : BufTy).Contents (Elt F) → (⟨S32x2048x1, .f32⟩ : BufTy).Contents (Elt F) → (⟨S32x2048x1, .f32⟩ : BufTy).Contents (Elt F)),
    unary main_arg0 main_v7 (broadcastInDim S32x1x2048 ![0, 2] bcast_S32x2048_S32x1x2048_0_2 : (⟨S32x2048, .f32⟩ : BufTy).Contents (Elt F) → (⟨S32x1x2048, .f32⟩ : BufTy).Contents (Elt F)),
    unary main_v6 main_v8 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    unary main_v7 main_v9 (broadcastInDim S32x2048x2048 ![0, 1, 2] bcast_S32x1x2048_S32x2048x2048_0_1_2 : (⟨S32x1x2048, .f32⟩ : BufTy).Contents (Elt F) → (⟨S32x2048x2048, .f32⟩ : BufTy).Contents (Elt F)),
    binary main_v8 main_v9 main_v10 (addf : (⟨S32x2048x2048, .f32⟩ : BufTy).Contents (Elt F) → (⟨S32x2048x2048, .f32⟩ : BufTy).Contents (Elt F) → (⟨S32x2048x2048, .f32⟩ : BufTy).Contents (Elt F)),
    nullary main_cst_1 (constant S_ .f32 0x00000000#32),
    unary main_cst_1 main_v11 (broadcastInDim S32x2048x2048 ![] bcast_S_S32x2048x2048 : (⟨S_, .f32⟩ : BufTy).Contents (Elt F) → (⟨S32x2048x2048, .f32⟩ : BufTy).Contents (Elt F)),
    binary main_v10 main_v11 main_v12 (maximumf : (⟨S32x2048x2048, .f32⟩ : BufTy).Contents (Elt F) → (⟨S32x2048x2048, .f32⟩ : BufTy).Contents (Elt F) → (⟨S32x2048x2048, .f32⟩ : BufTy).Contents (Elt F)),
    unary main_v1 main_v13 (broadcastInDim S32x2048x1 ![0, 1] bcast_S32x2048_S32x2048x1_0_1 : (⟨S32x2048, .i1⟩ : BufTy).Contents (Elt F) → (⟨S32x2048x1, .i1⟩ : BufTy).Contents (Elt F)),
    unary main_v3 main_v14 (broadcastInDim S32x1x2048 ![0, 2] bcast_S32x2048_S32x1x2048_0_2 : (⟨S32x2048, .i1⟩ : BufTy).Contents (Elt F) → (⟨S32x1x2048, .i1⟩ : BufTy).Contents (Elt F)),
    unary main_v13 main_v15 (broadcastInDim S32x2048x2048 ![0, 1, 2] bcast_S32x2048x1_S32x2048x2048_0_1_2 : (⟨S32x2048x1, .i1⟩ : BufTy).Contents (Elt F) → (⟨S32x2048x2048, .i1⟩ : BufTy).Contents (Elt F)),
    unary main_v14 main_v16 (broadcastInDim S32x2048x2048 ![0, 1, 2] bcast_S32x1x2048_S32x2048x2048_0_1_2 : (⟨S32x1x2048, .i1⟩ : BufTy).Contents (Elt F) → (⟨S32x2048x2048, .i1⟩ : BufTy).Contents (Elt F)),
    binary main_v15 main_v16 main_v17 (andi : (⟨S32x2048x2048, .i1⟩ : BufTy).Contents (Elt F) → (⟨S32x2048x2048, .i1⟩ : BufTy).Contents (Elt F) → (⟨S32x2048x2048, .i1⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S32x2048x2048, .f32⟩) main_call0_v1) (broadcastInDim S32x2048x2048 ![] bcast_S_S32x2048x2048),
    TRef.ternary (TRef.of (T := ⟨S32x2048x2048, .i1⟩) main_v17) (TRef.of (T := ⟨S32x2048x2048, .f32⟩) main_v12) (TRef.of (T := ⟨S32x2048x2048, .f32⟩) main_call0_v1) (TRef.of (T := ⟨S32x2048x2048, .f32⟩) main_v18) select,
    nullary main_cst_3 (constant S_ .f32 0x00000000#32),
    binary main_v18 main_cst_3 main_v19 ((fun x v => Host.reduceAdd x v reducesTo_S32x2048x2048_S32_d1_2 h_S_) : (⟨S32x2048x2048, .f32⟩ : BufTy).Contents (Elt F) → (⟨S_, .f32⟩ : BufTy).Contents (Elt F) → (⟨S32, .f32⟩ : BufTy).Contents (Elt F)),
    unary main_v1 main_v20 ((extui 32 · natLt_1_32) : (⟨S32x2048, .i1⟩ : BufTy).Contents (Elt F) → (⟨S32x2048, .i32⟩ : BufTy).Contents (Elt F)),
    nullary main_c_4 (constantI S_ 32 0#32),
    binary main_v20 main_c_4 main_v21 ((fun x v => Host.reduce IntOp.addi x v reducesTo_S32x2048_S32_d1 h_S_) : (⟨S32x2048, .i32⟩ : BufTy).Contents (Elt F) → (⟨S_, .i32⟩ : BufTy).Contents (Elt F) → (⟨S32, .i32⟩ : BufTy).Contents (Elt F)),
    unary main_v21 main_v22 (sitofp .f32 : (⟨S32, .i32⟩ : BufTy).Contents (Elt F) → (⟨S32, .f32⟩ : BufTy).Contents (Elt F)),
    unary main_v3 main_v23 ((extui 32 · natLt_1_32) : (⟨S32x2048, .i1⟩ : BufTy).Contents (Elt F) → (⟨S32x2048, .i32⟩ : BufTy).Contents (Elt F)),
    nullary main_c_5 (constantI S_ 32 0#32),
    binary main_v23 main_c_5 main_v24 ((fun x v => Host.reduce IntOp.addi x v reducesTo_S32x2048_S32_d1 h_S_) : (⟨S32x2048, .i32⟩ : BufTy).Contents (Elt F) → (⟨S_, .i32⟩ : BufTy).Contents (Elt F) → (⟨S32, .i32⟩ : BufTy).Contents (Elt F)),
    unary main_v24 main_v25 (sitofp .f32 : (⟨S32, .i32⟩ : BufTy).Contents (Elt F) → (⟨S32, .f32⟩ : BufTy).Contents (Elt F)),
    binary main_v22 main_v25 main_v26 (mulf : (⟨S32, .f32⟩ : BufTy).Contents (Elt F) → (⟨S32, .f32⟩ : BufTy).Contents (Elt F) → (⟨S32, .f32⟩ : BufTy).Contents (Elt F)),
    nullary main_cst_6 (constant S_ .f32 0x00000000#32),
    unary main_cst_6 main_v27 (broadcastInDim S32 ![] bcast_S_S32 : (⟨S_, .f32⟩ : BufTy).Contents (Elt F) → (⟨S32, .f32⟩ : BufTy).Contents (Elt F)),
    binary main_v26 main_v27 main_v28 (cmpf .ogt : (⟨S32, .f32⟩ : BufTy).Contents (Elt F) → (⟨S32, .f32⟩ : BufTy).Contents (Elt F) → (⟨S32, .i1⟩ : BufTy).Contents (Elt F)),
    nullary main_cst_7 (constant S_ .f32 0x3F800000#32),
    unary main_cst_7 main_v29 (broadcastInDim S32 ![] bcast_S_S32 : (⟨S_, .f32⟩ : BufTy).Contents (Elt F) → (⟨S32, .f32⟩ : BufTy).Contents (Elt F)),
    binary main_v26 main_v29 main_v30 (maximumf : (⟨S32, .f32⟩ : BufTy).Contents (Elt F) → (⟨S32, .f32⟩ : BufTy).Contents (Elt F) → (⟨S32, .f32⟩ : BufTy).Contents (Elt F)),
    binary main_v19 main_v30 main_v31 (Host.divf : (⟨S32, .f32⟩ : BufTy).Contents (Elt F) → (⟨S32, .f32⟩ : BufTy).Contents (Elt F) → (⟨S32, .f32⟩ : BufTy).Contents (Elt F)),
    unary main_v28 main_v32 ((extui 32 · natLt_1_32) : (⟨S32, .i1⟩ : BufTy).Contents (Elt F) → (⟨S32, .i32⟩ : BufTy).Contents (Elt F)),
    nullary main_c_8 (constantI S_ 32 0#32),
    binary main_v32 main_c_8 main_v33 ((fun x v => Host.reduce IntOp.addi x v reducesTo_S32_S_d0 h_S_) : (⟨S32, .i32⟩ : BufTy).Contents (Elt F) → (⟨S_, .i32⟩ : BufTy).Contents (Elt F) → (⟨S_, .i32⟩ : BufTy).Contents (Elt F)),
    unary main_v33 main_v34 (sitofp .f32 : (⟨S_, .i32⟩ : BufTy).Contents (Elt F) → (⟨S_, .f32⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S32, .f32⟩) main_call1_v1) (broadcastInDim S32 ![] bcast_S_S32),
    TRef.ternary (TRef.of (T := ⟨S32, .i1⟩) main_v28) (TRef.of (T := ⟨S32, .f32⟩) main_v31) (TRef.of (T := ⟨S32, .f32⟩) main_call1_v1) (TRef.of (T := ⟨S32, .f32⟩) main_v35) select,
    nullary main_cst_10 (constant S_ .f32 0x00000000#32),
    binary main_v35 main_cst_10 main_v36 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_11 (constant S_ .f32 0x3F800000#32),
    binary main_v34 main_cst_11 main_v37 (maximumf : (⟨S_, .f32⟩ : BufTy).Contents (Elt F) → (⟨S_, .f32⟩ : BufTy).Contents (Elt F) → (⟨S_, .f32⟩ : BufTy).Contents (Elt F)),
    binary main_v36 main_v37 main_v38 (Host.divf : (⟨S_, .f32⟩ : BufTy).Contents (Elt F) → (⟨S_, .f32⟩ : BufTy).Contents (Elt F) → (⟨S_, .f32⟩ : BufTy).Contents (Elt F)),
    nullary main_cst_12 (constant S_ .f32 0x00000000#32),
    binary main_v34 main_cst_12 main_v39 (cmpf .ogt : (⟨S_, .f32⟩ : BufTy).Contents (Elt F) → (⟨S_, .f32⟩ : BufTy).Contents (Elt F) → (⟨S_, .i1⟩ : BufTy).Contents (Elt F)),
    nullary main_cst_13 (constant S_ .f32 0x00000000#32),
    TRef.ternary (TRef.of (T := ⟨S_, .i1⟩) main_v39) (TRef.of (T := ⟨S_, .f32⟩) main_v38) (TRef.of (T := ⟨S_, .f32⟩) main_cst_13) (TRef.of (T := ⟨S_, .f32⟩) main_v40) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., unary_bufs_sub .., nullary_bufs_sub .., binary_bufs_sub .., unary_bufs_sub .., unary_bufs_sub .., nullary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., nullary_bufs_sub .., binary_bufs_sub .., unary_bufs_sub .., nullary_bufs_sub .., unary_bufs_sub .., unary_bufs_sub .., ternary_bufs_sub .., nullary_bufs_sub .., binary_bufs_sub .., nullary_bufs_sub .., binary_bufs_sub .., binary_bufs_sub .., nullary_bufs_sub .., binary_bufs_sub .., nullary_bufs_sub .., ternary_bufs_sub ..⟩

/-! ## The composed value, in stages -/

/-- pos(b,i): the label of (b,i) equals 1. -/
def pos (l : IVec S32x2048 32) : IVec S32x2048 1 :=
  cmpi .eq l (broadcastInDim S32x2048 ![] bcast_S_S32x2048 (constantI S_ 32 1#32))

/-- neg(b,i): the label of (b,i) equals 0. -/
def neg (l : IVec S32x2048 32) : IVec S32x2048 1 :=
  cmpi .eq l (broadcastInDim S32x2048 ![] bcast_S_S32x2048 (constantI S_ 32 0#32))

/-- hinge(b,i,j) = max((c - s(b,i)) + s(b,j), 0): s(b,i) is spread along j, s(b,j) along i. -/
def hinge (s : FVec F S32x2048 .f32) : FVec F S32x2048x2048 .f32 :=
  maximumf (F := F)
    (addf (F := F)
      (broadcastInDim S32x2048x2048 ![0, 1, 2] bcast_S32x2048x1_S32x2048x2048_0_1_2
        (subf (F := F) (broadcastInDim S32x2048x1 ![] bcast_S_S32x2048x1 (constant (F := F) S_ .f32 0x3DCCCCCD#32))
          (broadcastInDim S32x2048x1 ![0, 1] bcast_S32x2048_S32x2048x1_0_1 s)))
      (broadcastInDim S32x2048x2048 ![0, 1, 2] bcast_S32x1x2048_S32x2048x2048_0_1_2
        (broadcastInDim S32x1x2048 ![0, 2] bcast_S32x2048_S32x1x2048_0_2 s)))
    (broadcastInDim S32x2048x2048 ![] bcast_S_S32x2048x2048 (constant (F := F) S_ .f32 0x00000000#32))

/-- mask(b,i,j): pos(b,i) and neg(b,j). -/
def mask (l : IVec S32x2048 32) : IVec S32x2048x2048 1 :=
  andi
    (broadcastInDim S32x2048x2048 ![0, 1, 2] bcast_S32x2048x1_S32x2048x2048_0_1_2
      (broadcastInDim S32x2048x1 ![0, 1] bcast_S32x2048_S32x2048x1_0_1 (pos l)))
    (broadcastInDim S32x2048x2048 ![0, 1, 2] bcast_S32x1x2048_S32x2048x2048_0_1_2
      (broadcastInDim S32x1x2048 ![0, 2] bcast_S32x2048_S32x1x2048_0_2 (neg l)))

/-- masked(b,i,j): the hinge on the (positive, negative) pairs, 0 on the others. -/
def masked (s : FVec F S32x2048 .f32) (l : IVec S32x2048 32) : FVec F S32x2048x2048 .f32 :=
  select (mask l) (hinge (F := F) s)
    (broadcastInDim S32x2048x2048 ![] bcast_S_S32x2048x2048 (id (constant (F := F) S_ .f32 0x00000000#32)))

/-- rowSum(b): the sum of masked(b,i,j) over all (i,j), from 0. -/
def rowSum (s : FVec F S32x2048 .f32) (l : IVec S32x2048 32) : FVec F S32 .f32 :=
  Host.reduceAdd (F := F) (masked (F := F) s l) (constant (F := F) S_ .f32 0x00000000#32)
    reducesTo_S32x2048x2048_S32_d1_2 h_S_

/-- count m (b): the 32-bit sum over j of the bits m(b,j), from 0. -/
def count (m : IVec S32x2048 1) : IVec S32 32 :=
  Host.reduce IntOp.addi (extui 32 m natLt_1_32) (constantI S_ 32 0#32) reducesTo_S32x2048_S32_d1 h_S_

/-- pairCount(b): the number of positives times the number of negatives of row b, each count read as a float. -/
def pairCount (l : IVec S32x2048 32) : FVec F S32 .f32 :=
  mulf (F := F) (sitofp (F := F) .f32 (count (pos l))) (sitofp (F := F) .f32 (count (neg l)))

/-- The closing operations, from the row sums and the pair counts to the scalar result: a row is valid when its pair
    count is positive; its loss is its row sum over max(pair count, 1); the result is the valid rows' losses summed
    over max(number of valid rows, 1), and 0 when there is no valid row. -/
def finish (rs np : FVec F S32 .f32) : FVec F S_ .f32 :=
  let zero : FVec F S_ .f32 := constant (F := F) S_ .f32 0x00000000#32
  let unit : FVec F S_ .f32 := constant (F := F) S_ .f32 0x3F800000#32
  let valid : IVec S32 1 := cmpf (F := F) .ogt np (broadcastInDim S32 ![] bcast_S_S32 zero)
  let rowLoss : FVec F S32 .f32 :=
    Host.divf (F := F) rs (maximumf (F := F) np (broadcastInDim S32 ![] bcast_S_S32 unit))
  let nValid : FVec F S_ .f32 :=
    sitofp (F := F) .f32 (Host.reduce IntOp.addi (extui 32 valid natLt_1_32) (constantI S_ 32 0#32) reducesTo_S32_S_d0 h_S_)
  let kept : FVec F S32 .f32 := select valid rowLoss (broadcastInDim S32 ![] bcast_S_S32 (id zero))
  let total : FVec F S_ .f32 :=
    Host.divf (F := F) (Host.reduceAdd (F := F) kept zero reducesTo_S32_S_d0 h_S_) (maximumf (F := F) nValid unit)
  select (cmpf (F := F) .ogt nValid zero) total zero

/-- The reference's result as a function of its two arguments. -/
def result (s : FVec F S32x2048 .f32) (l : IVec S32x2048 32) : FVec F S_ .f32 :=
  finish (F := F) (rowSum (F := F) s l) (pairCount (F := F) l)

/-! ## The run -/

set_option maxRecDepth 8192 in
set_option maxHeartbeats 24400000 in
/-- On every device, for any float values, from any memory with zero counters: every weakly fair execution of @main
    terminates with the result buffer at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v40).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.RefProgram

end
-- ==== Proof.RefSide.lean ====
/-
  The reference's result, stage by stage, as functions of the score array `s` and the label array `l`.

  The result is the closing operations (module Tail) applied to two per-row quantities: the row sum of the masked
  hinges and the pair count. Under the precondition that every label is 0 or 1, with lf the labels read as floats:

    the row sum of row b is  Σ_i Σ_j hinge(b,i,j) · lf(b,i) · (1 - lf(b,j)):  the mask "label(b,i) = 1 and label(b,j) = 0"
    keeps exactly the pairs whose weight lf(b,i)·(1 - lf(b,j)) is 1, and the weight of every other pair is 0;

    the pair count of row b is  (Σ_j lf(b,j)) · (Σ_j (1 - lf(b,j))):  a 32-bit sum of 2048 words each 0 or 1 cannot wrap,
    so it is the number of set bits, and the number of j with label 1 (with label 0) is Σ_j lf(b,j) (Σ_j (1 - lf(b,j))).
-/
import proofs.«128781_j57904749084751_1_alg».proof.Proof.RefProgram
import proofs.«128781_j57904749084751_1_alg».proof.Proof.Spec
import proofs.«128781_j57904749084751_1_alg».proof.Proof.Tail
import Idealize.ShloMosaic.Lib.Pipeline.Value
import Idealize.ShloMosaic.PureOps.Ideal.Laws
import Idealize.ShloMosaic.PureOps.Reduce
import Idealize.ShloMosaic.Lib.ValueIdx

noncomputable section

namespace Cert.RefSide

open Cert.ReferenceIdeal Cert.ReferenceIdeal.Gen Idealize.ShloMosaic Idealize.ShloMosaic.ValueIdx

/-! ## The constants and the two label values read as floats -/

/-- The f32 word 0x3F800000 is the real number 1: exponent field 127 (so 2^0), fraction 0. -/
theorem one_eq : Cert.Spec.one = 1 := by
  unfold Cert.Spec.one
  simp [Ideal.ofBits, Ideal.ieee]
  have h : ((8388608 : ℝ) * ((2 : ℝ) ^ 23)⁻¹) = 1 := by norm_num
  first
    | exact_mod_cast h
    | (rw [← EReal.coe_mul, h]; rfl)
    | (norm_cast; norm_num)

/-- The integer word 0 read as a float is 0. -/
theorem sitofp_zero : FloatOps.sitofp (F := Ideal) .f32 (0#32) = (0 : EReal) := by
  show (((0#32 : BitVec 32).toInt : ℝ) : EReal) = 0
  simp

/-- The integer word 1 read as a float is 1. -/
theorem sitofp_one : FloatOps.sitofp (F := Ideal) .f32 (1#32) = (1 : EReal) := by
  show (((1#32 : BitVec 32).toInt : ℝ) : EReal) = 1
  have : (1#32 : BitVec 32).toInt = 1 := by decide
  rw [this]; simp

/-! ## The result is the closing operations on the row sums and the pair counts -/

/-- The row sums: the reference's reduction of the masked hinges over both pair axes. -/
abbrev rsR (s : Cert.Spec.Sc.Idx → EReal) (l : Cert.Spec.Sc.Idx → BitVec 32) : FVec Ideal ⟨1, ![32]⟩ .f32 :=
  Cert.RefProgram.rowSum (F := Ideal) s l

/-- The pair counts: the product of the two integer counts, each read as a float. -/
abbrev npR (l : Cert.Spec.Sc.Idx → BitVec 32) : FVec Ideal ⟨1, ![32]⟩ .f32 :=
  Cert.RefProgram.pairCount (F := Ideal) l

/-- The reference's result is the closing operations applied to its row sums and pair counts: the two definitions
    list the same operations in the same order. -/
theorem ref_result (s : Cert.Spec.Sc.Idx → EReal) (l : Cert.Spec.Sc.Idx → BitVec 32) :
    Cert.RefProgram.result (F := Ideal) s l
      = Cert.Spec.tail bcast_S_S32 natLt_1_32 reducesTo_S32_S_d0 h_S_ (rsR s l) (npR l) := rfl

/-! ## Counting: a 32-bit sum of 2048 bits is the number of set bits -/

/-- The 32-bit sum of a family of words, read as a natural number, is the sum of their readings modulo 2^32. -/
theorem fold_addi_toNat {ι : Type} [DecidableEq ι] (S : Finset ι) (f : ι → BitVec 32) :
    (S.fold IntOp.addi 0#32 f).toNat = (∑ k ∈ S, (f k).toNat) % 2 ^ 32 := by
  refine Finset.induction_on S ?_ ?_
  · simp
  · intro a S ha ih
    rw [Finset.fold_insert ha, Finset.sum_insert ha]
    show (f a + S.fold IntOp.addi 0#32 f).toNat = _
    rw [BitVec.toNat_add, ih, Nat.add_mod_mod]

/-- A sum of fewer than 2^31 zero-extended bits does not wrap: its signed reading is the number of set bits. -/
theorem fold_addi_bits_toInt {n : Nat} (hn : n < 2 ^ 31) (c : Fin n → BitVec 1) :
    ((Finset.univ : Finset (Fin n)).fold IntOp.addi 0#32 (fun k => (c k).setWidth 32)).toInt
      = ((∑ k : Fin n, (c k).toNat : Nat) : Int) := by
  have hle : ∑ k : Fin n, (c k).toNat ≤ n := by
    calc ∑ k : Fin n, (c k).toNat ≤ ∑ _k : Fin n, 1 := Finset.sum_le_sum fun k _ => by
            have := (c k).isLt; omega
      _ = n := by simp
  have hnat : ((Finset.univ : Finset (Fin n)).fold IntOp.addi 0#32 (fun k => (c k).setWidth 32)).toNat
      = ∑ k : Fin n, (c k).toNat := by
    rw [fold_addi_toNat]
    have : ∀ k : Fin n, ((c k).setWidth 32).toNat = (c k).toNat := fun k => by
      rw [BitVec.toNat_setWidth]; have := (c k).isLt; omega
    simp only [this]
    exact Nat.mod_eq_of_lt (by omega)
  rw [BitVec.toInt_eq_toNat_cond, hnat]
  rw [if_pos (by omega)]

/-- The shape fact of the sum over the second axis, in the form that names the index with a coordinate inserted. -/
theorem red1 : (⟨2, ![32, 2048]⟩ : Shape).Reduces [1] ⟨1, ![32]⟩ := by decide

/-- Row b with the coordinate k inserted on the second axis is the index (b, k). -/
theorem lift_eq (b : Fin 32) (k : Fin 2048) : red1.lift (ix1 b) k = ix2 b k := by
  funext a
  match a with
  | ⟨0, _⟩ => exact Fin.ext rfl
  | ⟨1, _⟩ => exact Fin.ext rfl

/-- The integer count of row b, read signed, is the number of j at which the bit m(b,j) is set. -/
theorem count_toInt (m : IVec ⟨2, ![32, 2048]⟩ 1) (b : Fin 32) :
    (Cert.RefProgram.count m (ix1 b)).toInt = ((∑ k : Fin 2048, (m (ix2 b k)).toNat : Nat) : Int) := by
  have hf : (extui 32 m natLt_1_32 ∘ red1.lift (ix1 b)) = fun k : Fin 2048 => (m (ix2 b k)).setWidth 32 :=
    funext fun k => congrArg (fun idx => (m idx).setWidth 32) (lift_eq b k)
  unfold Cert.RefProgram.count
  refine (congrArg BitVec.toInt
    (Host.reduce_eq_fold_single IntOp.addi _ _ reducesTo_S32x2048_S32_d1 red1 h_S_ (ix1 b))).trans ?_
  refine (congrArg (fun f : Fin 2048 → BitVec 32 =>
    ((Finset.univ : Finset (Fin 2048)).fold IntOp.addi 0#32 f).toInt) hf).trans ?_
  exact fold_addi_bits_toInt (by norm_num) _

/-- 1 - 1 = 0 on the extended reals (both are real). -/
theorem one_sub_one : (1 : EReal) - 1 = 0 := by
  rw [← EReal.coe_one, ← EReal.coe_sub, sub_self, EReal.coe_zero]

/-- Under the precondition the bit "label = 1", read as a number, is the label read as a float. -/
theorem pos_cast (l : Cert.Spec.Sc.Idx → BitVec 32) (i : Cert.Spec.Sc.Idx) (h : l i = 0#32 ∨ l i = 1#32) :
    (((Cert.RefProgram.pos l i).toNat : Nat) : EReal) = FloatOps.sitofp (F := Ideal) .f32 (l i) := by
  have e : Cert.RefProgram.pos l i = IntOp.cmpi .eq (l i) 1#32 := rfl
  rcases h with h | h
  · rw [e, h, sitofp_zero, show IntOp.cmpi .eq (0#32) (1#32) = 0#1 from by decide]; simp
  · rw [e, h, sitofp_one, show IntOp.cmpi .eq (1#32) (1#32) = 1#1 from by decide]; simp

/-- Under the precondition the bit "label = 0", read as a number, is 1 minus the label read as a float. -/
theorem neg_cast (l : Cert.Spec.Sc.Idx → BitVec 32) (i : Cert.Spec.Sc.Idx) (h : l i = 0#32 ∨ l i = 1#32) :
    (((Cert.RefProgram.neg l i).toNat : Nat) : EReal) = Cert.Spec.one - FloatOps.sitofp (F := Ideal) .f32 (l i) := by
  have e : Cert.RefProgram.neg l i = IntOp.cmpi .eq (l i) 0#32 := rfl
  rcases h with h | h
  · rw [e, h, sitofp_zero, one_eq, show IntOp.cmpi .eq (0#32) (0#32) = 1#1 from by decide]; simp
  · rw [e, h, sitofp_one, one_eq, one_sub_one, show IntOp.cmpi .eq (1#32) (0#32) = 0#1 from by decide]; simp

/-- A natural number reached through the integers and the reals is itself on the extended reals, and a sum of
    naturals is cast term by term. -/
theorem cast_count (f : Fin 2048 → Nat) :
    ((((∑ k : Fin 2048, f k : Nat) : Int) : ℝ) : EReal) = ∑ k : Fin 2048, ((f k : Nat) : EReal) := by
  rw [Int.cast_natCast]
  show ((∑ k : Fin 2048, f k : Nat) : EReal) = _
  rw [Nat.cast_sum]

/-- The pair count of row b is (Σ_j lf(b,j)) · (Σ_j (1 - lf(b,j))), lf the labels read as floats. -/
theorem ref_nPairs (l : Cert.Spec.Sc.Idx → BitVec 32) (hl : ∀ i, l i = 0#32 ∨ l i = 1#32) (b : Fin 32) :
    npR l (ix1 b) = Cert.Spec.nPairs (fun i => FloatOps.sitofp (F := Ideal) .f32 (l i)) b := by
  show (((Cert.RefProgram.count (Cert.RefProgram.pos l) (ix1 b)).toInt : ℝ) : EReal)
      * (((Cert.RefProgram.count (Cert.RefProgram.neg l) (ix1 b)).toInt : ℝ) : EReal) = _
  unfold Cert.Spec.nPairs
  rw [count_toInt, count_toInt, cast_count, cast_count]
  exact congrArg₂ (· * ·) (Finset.sum_congr rfl fun k _ => pos_cast l _ (hl _))
    (Finset.sum_congr rfl fun k _ => neg_cast l _ (hl _))

/-! ## The row sum: the masked hinges of row b, summed over all pairs -/

/-- A float sum over any axes, read at a result index: the initial value plus the sum of the operand over the
    indices that drop to it. -/
theorem hostReduceAdd_apply {s t : Shape} {axes : List (Fin s.rank)} (h : s.ReducesTo axes t)
    (h0 : 0 < (⟨0, ![]⟩ : Shape).numel) (x : FVec Ideal s .f32) (init : FVec Ideal ⟨0, ![]⟩ .f32) (j : t.Idx) :
    Host.reduceAdd (F := Ideal) x init h h0 j
      = init (Shape.Idx.first h0) + ∑ i ∈ Finset.univ.filter (fun i => h.drop i = j), x i := rfl

/-- An array over (b, i, ·) with one entry on the last axis, spread along j: at (b,i,j) it reads (b,i,0). -/
theorem up1 {α : Type} (y : S32x2048x1.Idx → α) (b : Fin 32) (i j : Fin 2048) :
    broadcastInDim S32x2048x2048 ![0, 1, 2] bcast_S32x2048x1_S32x2048x2048_0_1_2 y (ix3 b i j)
      = y (ix3 b i (0 : Fin 1)) :=
  broadcastInDim_apply _ bcast_S32x2048x1_S32x2048x2048_0_1_2 y (ix3 b i j) (ix3 b i (0 : Fin 1)) (fun a =>
    match a with
    | ⟨0, _⟩ => by show b.val = if (32 : Nat) = 1 then 0 else b.val; rw [if_neg (by decide)]
    | ⟨1, _⟩ => by show i.val = if (2048 : Nat) = 1 then 0 else i.val; rw [if_neg (by decide)]
    | ⟨2, _⟩ => by show 0 = if (1 : Nat) = 1 then 0 else j.val; rw [if_pos rfl])

/-- An array over (b, i) given a last axis of one entry: at (b,i,0) it reads (b,i). -/
theorem in1 {α : Type} (x : S32x2048.Idx → α) (b : Fin 32) (i : Fin 2048) :
    broadcastInDim S32x2048x1 ![0, 1] bcast_S32x2048_S32x2048x1_0_1 x (ix3 b i (0 : Fin 1)) = x (ix2 b i) :=
  broadcastInDim_apply _ bcast_S32x2048_S32x2048x1_0_1 x (ix3 b i (0 : Fin 1)) (ix2 b i) (fun a =>
    match a with
    | ⟨0, _⟩ => by show b.val = if (32 : Nat) = 1 then 0 else b.val; rw [if_neg (by decide)]
    | ⟨1, _⟩ => by show i.val = if (2048 : Nat) = 1 then 0 else i.val; rw [if_neg (by decide)])

/-- An array over (b, ·, j) with one entry on the middle axis, spread along i: at (b,i,j) it reads (b,0,j). -/
theorem up2 {α : Type} (y : S32x1x2048.Idx → α) (b : Fin 32) (i j : Fin 2048) :
    broadcastInDim S32x2048x2048 ![0, 1, 2] bcast_S32x1x2048_S32x2048x2048_0_1_2 y (ix3 b i j)
      = y (ix3 b (0 : Fin 1) j) :=
  broadcastInDim_apply _ bcast_S32x1x2048_S32x2048x2048_0_1_2 y (ix3 b i j) (ix3 b (0 : Fin 1) j) (fun a =>
    match a with
    | ⟨0, _⟩ => by show b.val = if (32 : Nat) = 1 then 0 else b.val; rw [if_neg (by decide)]
    | ⟨1, _⟩ => by show 0 = if (1 : Nat) = 1 then 0 else i.val; rw [if_pos rfl]
    | ⟨2, _⟩ => by show j.val = if (2048 : Nat) = 1 then 0 else j.val; rw [if_neg (by decide)])

/-- An array over (b, j) given a middle axis of one entry: at (b,0,j) it reads (b,j). -/
theorem in2 {α : Type} (x : S32x2048.Idx → α) (b : Fin 32) (j : Fin 2048) :
    broadcastInDim S32x1x2048 ![0, 2] bcast_S32x2048_S32x1x2048_0_2 x (ix3 b (0 : Fin 1) j) = x (ix2 b j) :=
  broadcastInDim_apply _ bcast_S32x2048_S32x1x2048_0_2 x (ix3 b (0 : Fin 1) j) (ix2 b j) (fun a =>
    match a with
    | ⟨0, _⟩ => by show b.val = if (32 : Nat) = 1 then 0 else b.val; rw [if_neg (by decide)]
    | ⟨1, _⟩ => by show j.val = if (2048 : Nat) = 1 then 0 else j.val; rw [if_neg (by decide)])

/-- The mask at (b,i,j): "label(b,i) = 1" and "label(b,j) = 0". -/
theorem mask_apply (l : Cert.Spec.Sc.Idx → BitVec 32) (b : Fin 32) (i j : Fin 2048) :
    Cert.RefProgram.mask l (ix3 b i j)
      = IntOp.andi (IntOp.cmpi .eq (l (ix2 b i)) 1#32) (IntOp.cmpi .eq (l (ix2 b j)) 0#32) := by
  show IntOp.andi
      (broadcastInDim S32x2048x2048 ![0, 1, 2] bcast_S32x2048x1_S32x2048x2048_0_1_2
        (broadcastInDim S32x2048x1 ![0, 1] bcast_S32x2048_S32x2048x1_0_1 (Cert.RefProgram.pos l)) (ix3 b i j))
      (broadcastInDim S32x2048x2048 ![0, 1, 2] bcast_S32x1x2048_S32x2048x2048_0_1_2
        (broadcastInDim S32x1x2048 ![0, 2] bcast_S32x2048_S32x1x2048_0_2 (Cert.RefProgram.neg l)) (ix3 b i j)) = _
  rw [up1, in1, up2, in2]
  rfl

/-- The hinge array at (b,i,j) is max((c - s(b,i)) + s(b,j), 0). -/
theorem hinge_apply (s : Cert.Spec.Sc.Idx → EReal) (b : Fin 32) (i j : Fin 2048) :
    Cert.RefProgram.hinge (F := Ideal) s (ix3 b i j) = Cert.Spec.hinge s b i j := by
  show max
      ((broadcastInDim S32x2048x2048 ![0, 1, 2] bcast_S32x2048x1_S32x2048x2048_0_1_2
          (subf (F := Ideal)
            (broadcastInDim S32x2048x1 ![] bcast_S_S32x2048x1 (constant (F := Ideal) S_ .f32 0x3DCCCCCD#32))
            (broadcastInDim S32x2048x1 ![0, 1] bcast_S32x2048_S32x2048x1_0_1 s)) (ix3 b i j))
        + (broadcastInDim S32x2048x2048 ![0, 1, 2] bcast_S32x1x2048_S32x2048x2048_0_1_2
            (broadcastInDim S32x1x2048 ![0, 2] bcast_S32x2048_S32x1x2048_0_2 s) (ix3 b i j)))
      (Ideal.ofBits .f32 0x00000000#32) = _
  rw [up1, up2, in2, Ideal.ofBits_zero_f32]
  show max ((Ideal.ofBits .f32 0x3DCCCCCD#32
      - broadcastInDim S32x2048x1 ![0, 1] bcast_S32x2048_S32x2048x1_0_1 s (ix3 b i (0 : Fin 1))) + s (ix2 b j)) 0 = _
  rw [in1]
  rfl

/-- The masked hinge at (b,i,j) is the hinge times the weight lf(b,i)·(1 - lf(b,j)): by the four cases of the two
    labels. The weight is 1 exactly when label(b,i) = 1 and label(b,j) = 0, which is when the mask keeps the hinge;
    in the other three cases the weight is 0, as is the masked value. (x·1 = x and x·0 = 0 for every extended real.) -/
theorem masked_apply (s : Cert.Spec.Sc.Idx → EReal) (l : Cert.Spec.Sc.Idx → BitVec 32)
    (hl : ∀ i, l i = 0#32 ∨ l i = 1#32) (b : Fin 32) (i j : Fin 2048) :
    Cert.RefProgram.masked (F := Ideal) s l (ix3 b i j)
      = Cert.Spec.hinge s b i j * Cert.Spec.weight (fun i => FloatOps.sitofp (F := Ideal) .f32 (l i)) b i j := by
  show Scalar.select (Cert.RefProgram.mask l (ix3 b i j)) (Cert.RefProgram.hinge (F := Ideal) s (ix3 b i j))
      (Ideal.ofBits .f32 0x00000000#32)
    = Cert.Spec.hinge s b i j * (FloatOps.sitofp (F := Ideal) .f32 (l (ix2 b i))
        * (Cert.Spec.one - FloatOps.sitofp (F := Ideal) .f32 (l (ix2 b j))))
  rw [mask_apply, hinge_apply, Ideal.ofBits_zero_f32, one_eq]
  rcases hl (ix2 b i) with hi | hi <;> rcases hl (ix2 b j) with hj | hj
  · rw [hi, hj, sitofp_zero,
      show IntOp.andi (IntOp.cmpi .eq (0#32) (1#32)) (IntOp.cmpi .eq (0#32) (0#32)) = 0#1 from by decide,
      select_zero, zero_mul, mul_zero]
  · rw [hi, hj, sitofp_zero, sitofp_one,
      show IntOp.andi (IntOp.cmpi .eq (0#32) (1#32)) (IntOp.cmpi .eq (1#32) (0#32)) = 0#1 from by decide,
      select_zero, zero_mul, mul_zero]
  · rw [hi, hj, sitofp_one, sitofp_zero,
      show IntOp.andi (IntOp.cmpi .eq (1#32) (1#32)) (IntOp.cmpi .eq (0#32) (0#32)) = 1#1 from by decide,
      select_one, sub_zero, mul_one, mul_one]
  · rw [hi, hj, sitofp_one, one_sub_one,
      show IntOp.andi (IntOp.cmpi .eq (1#32) (1#32)) (IntOp.cmpi .eq (1#32) (0#32)) = 0#1 from by decide,
      select_zero, mul_zero, mul_zero]

/-- The index (b,i,j) drops to row b when the two pair axes are removed. -/
theorem drop_ix3 (b : Fin 32) (i j : Fin 2048) :
    reducesTo_S32x2048x2048_S32_d1_2.drop (ix3 b i j) = ix1 b := by
  funext c
  match c with
  | ⟨0, _⟩ =>
    show reducesTo_S32x2048x2048_S32_d1_2.drop (ix3 b i j) (0 : Fin 1) = ix1 b (0 : Fin 1)
    exact Fin.ext
      (Shape.ReducesTo.drop_apply_val_of_eq reducesTo_S32x2048x2048_S32_d1_2 (ix3 b i j) (0 : Fin 1) (0 : Fin 3))

/-- An index that drops to row b has first coordinate b. -/
theorem row_of_drop (idx : S32x2048x2048.Idx) (b : Fin 32)
    (h : reducesTo_S32x2048x2048_S32_d1_2.drop idx = ix1 b) : idx 0 = b := by
  have h1 : ((reducesTo_S32x2048x2048_S32_d1_2.drop idx (0 : Fin 1) : Fin 32) : Nat) = b.val :=
    congrArg (fun f : S32.Idx => ((f (0 : Fin 1) : Fin 32) : Nat)) h
  exact Fin.ext ((Shape.ReducesTo.drop_apply_val_of_eq reducesTo_S32x2048x2048_S32_d1_2 idx (0 : Fin 1) (0 : Fin 3)).symm.trans h1)

/-- An index that drops to row b is (b, i, j) for its own two pair coordinates. -/
theorem idx_eq (idx : S32x2048x2048.Idx) (b : Fin 32)
    (h : reducesTo_S32x2048x2048_S32_d1_2.drop idx = ix1 b) : idx = ix3 b (idx 1) (idx 2) := by
  have h0 := row_of_drop idx b h
  have e := eq_ix3 idx
  rw [h0] at e
  exact e

/-- The sum over the indices that drop to row b is the sum over their two pair coordinates: those indices are
    exactly the (b,i,j), each from one pair (i,j). -/
theorem sum_fiber (x : S32x2048x2048.Idx → EReal) (b : Fin 32) :
    ∑ idx ∈ Finset.univ.filter (fun idx => reducesTo_S32x2048x2048_S32_d1_2.drop idx = ix1 b), x idx
      = ∑ p : Fin 2048 × Fin 2048, x (ix3 b p.1 p.2) := by
  classical
  have himg : (Finset.univ.filter fun idx => reducesTo_S32x2048x2048_S32_d1_2.drop idx = ix1 b)
      = Finset.univ.image (fun p : Fin 2048 × Fin 2048 => (ix3 b p.1 p.2 : S32x2048x2048.Idx)) := by
    ext idx
    simp only [Finset.mem_filter, Finset.mem_univ, true_and, Finset.mem_image]
    constructor
    · intro h; exact ⟨(idx 1, idx 2), (idx_eq idx b h).symm⟩
    · rintro ⟨p, rfl⟩; exact drop_ix3 b p.1 p.2
  rw [himg, Finset.sum_image]
  intro p _ q _ e
  have e1 := congrFun e (1 : Fin 3)
  have e2 := congrFun e (2 : Fin 3)
  exact Prod.ext e1 e2

/-- The row sum of row b is Σ_i Σ_j hinge(b,i,j) · lf(b,i) · (1 - lf(b,j)), lf the labels read as floats: the sum
    over the indices that drop to row b is the sum over their two pair coordinates, and each term is read above. -/
theorem ref_rowSum (s : Cert.Spec.Sc.Idx → EReal) (l : Cert.Spec.Sc.Idx → BitVec 32)
    (hl : ∀ i, l i = 0#32 ∨ l i = 1#32) (b : Fin 32) :
    rsR s l (ix1 b) = Cert.Spec.pairSum s (fun i => FloatOps.sitofp (F := Ideal) .f32 (l i)) b := by
  show Host.reduceAdd (F := Ideal) (Cert.RefProgram.masked (F := Ideal) s l) (constant (F := Ideal) S_ .f32 0x00000000#32)
      reducesTo_S32x2048x2048_S32_d1_2 h_S_ (ix1 b) = _
  rw [hostReduceAdd_apply]
  have hz : constant (F := Ideal) S_ .f32 0x00000000#32 (Shape.Idx.first h_S_) = (0 : EReal) := Ideal.ofBits_zero_f32
  rw [hz, zero_add, sum_fiber]
  have hterm : ∀ p : Fin 2048 × Fin 2048, Cert.RefProgram.masked (F := Ideal) s l (ix3 b p.1 p.2)
      = Cert.Spec.hinge s b p.1 p.2
        * Cert.Spec.weight (fun i => FloatOps.sitofp (F := Ideal) .f32 (l i)) b p.1 p.2 :=
    fun p => masked_apply s l hl b p.1 p.2
  rw [Fintype.sum_congr _ _ hterm]
  exact Fintype.sum_prod_type' (fun i j =>
    Cert.Spec.hinge s b i j * Cert.Spec.weight (fun i => FloatOps.sitofp (F := Ideal) .f32 (l i)) b i j)

end Cert.RefSide

end
-- ==== Proof.PreLabels.lean ====
/-
  The precondition read back: every label is 0 or 1.

  The precondition is the conjunction of two "all entries" tests, each an and-reduction of a one-bit array over both
  axes from the bit 1. The second array holds, at each entry, the bit (label = 0) or (label = 1). If the conjunction is
  1 then the second reduction is 1, so every entry of its array is 1, and a word x with (x = 0) or (x = 1) set is 0 or 1.
-/
import proofs.«128781_j57904749084751_1_alg».proof.Pre_finite_inputs
import proofs.«128781_j57904749084751_1_alg».proof.Proof.Gen.Pre_finite_inputs
import Idealize.ShloMosaic.Lib.ReduceAll
import Idealize.ShloMosaic.Lib.ValueIdx

namespace Cert.PreLabels

open Idealize.ShloMosaic Idealize.ShloMosaic.ValueIdx

/-- A 32-bit word whose bit "(x = 0) or (x = 1)" is set is 0 or 1: an or of two bits is set when one of them is, and
    an equality comparison's bit is set exactly when the words are equal. -/
theorem word_binary (x : BitVec 32)
    (h : IntOp.ori (IntOp.cmpi .eq x 0#32) (IntOp.cmpi .eq x 1#32) = 1#1) : x = 0#32 ∨ x = 1#32 := by
  rcases IntOp.ori_eq_one.1 h with h0 | h1
  · exact Or.inl (IntOp.cmpi_eq.1 h0)
  · exact Or.inr (IntOp.cmpi_eq.1 h1)

/-- If the precondition holds of the scores `s` and the labels `l`, every label is 0 or 1. -/
theorem labels_binary {F : FTy → Type} [FloatOps F] [Cert.Pre_finite_inputs.Facts]
    (s : FVec F Cert.Pre_finite_inputs.S32x2048 .f32) (l : IVec Cert.Pre_finite_inputs.S32x2048 32)
    (h : Cert.Pre_finite_inputs.fn (F := F) s l = fun _ => 1#1) : ∀ i, l i = 0#32 ∨ l i = 1#32 := by
  intro i
  have h1 := congrFun h ix0
  dsimp only [Cert.Pre_finite_inputs.fn] at h1
  change IntOp.andi _ _ = 1#1 at h1
  have h2 := (IntOp.andi_eq_one.1 h1).2
  haveI : Subsingleton Cert.Pre_finite_inputs.S_.Idx := ⟨fun a b => funext fun d => d.elim0⟩
  have h3 := Host.reduce_andi_all _ _ _ _ ix0 h2 i
  exact word_binary (l i) h3

end Cert.PreLabels
-- ==== Proof.lean ====
/-
  The certificate's proof: the frames of the three programs, the (empty) idealization ledger, and the equality of the
  kernel program's and the reference's results on the extended reals, for finite scores and labels in {0, 1}.

  The kernel computes, per row b of the 32 × 2048 score array s with 0/1 labels l, the pairwise hinge sum
  Σ_i Σ_j max((c − s(b,i)) + s(b,j), 0) · l(b,i) · (1 − l(b,j)) tile by tile (8 rows × 256 × 256 per grid point, a running
  total carried in scratch over the 8 × 8 tiles of a row block and written out at the last), the reference as one reduction of
  the hinges masked by (l(b,i) = 1 ∧ l(b,j) = 0); both then divide by the number of (positive, negative) pairs and average over
  the rows that have such pairs, by the same closing operations.
-/
import proofs.«128781_j57904749084751_1_alg».proof.Defs
import proofs.«128781_j57904749084751_1_alg».proof.Proof.Gen.Kernel
import proofs.«128781_j57904749084751_1_alg».proof.Proof.Gen.KernelIdeal
import proofs.«128781_j57904749084751_1_alg».proof.Proof.Gen.ReferenceIdeal
import proofs.«128781_j57904749084751_1_alg».proof.Proof.Gen.Pre_finite_inputs
import proofs.«128781_j57904749084751_1_alg».proof.Proof.BitsFrame
import proofs.«128781_j57904749084751_1_alg».proof.Proof.IdealFrame
import proofs.«128781_j57904749084751_1_alg».proof.Proof.IdealTail
import proofs.«128781_j57904749084751_1_alg».proof.Proof.IdealValue
import proofs.«128781_j57904749084751_1_alg».proof.Proof.RefSide
import proofs.«128781_j57904749084751_1_alg».proof.Proof.PreLabels
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The three frames and the (empty) idealization ledger -/

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.RefProgram.run (F := Ideal) m ρ)
theorem preserves : Cert.preserves_Kernel_KernelIdeal := trivial

/-! ## The two results are one function of the arguments

Both programs end with the same closing operations applied to (row sums, pair counts). For labels in {0, 1}: the kernel's
row sum — the tile parts added up over the 8 × 8 tiles of a row block — and the reference's one reduction of the masked
hinges are both Σ_i Σ_j hinge(b,i,j)·lf(b,i)·(1 − lf(b,j)); the kernel's pair count (Σ lf)(Σ (1 − lf)) and the reference's
product of the two integer counts are the same real number. -/

section Value

open Cert.KernelIdeal Cert.KernelIdeal.Gen Cert.KernelIdeal.Hand

variable (m : (ℓ : Loc Cert.KernelIdeal.nD Cert.KernelIdeal.τ Cert.KernelIdeal.sig) → Buf (Elt Ideal) ℓ)

/-- The scores as the region finds them are the scores as launched. -/
theorem scores_eq (c : Dev nD) : V m c main_arg0 = m ((c.tc : Thread nD τ).loc main_arg0) :=
  Cert.KernelIdeal.Keeps.keeps0_arg0 (W0 m c)

/-- The float labels the region finds are the launched labels converted entry by entry. -/
theorem labels_eq (c : Dev nD) :
    (V m c main_v0 : S32x2048.Idx → EReal) = fun i => FloatOps.sitofp (F := Ideal) .f32 (m ((c.tc : Thread nD τ).loc main_arg1) i) := by
  show StableHlo.after hostOps0 (W0 m c) (Proc.devRef .tc main_v0) = _
  after_results
  rfl

/-- The kernel program's result, for labels in {0, 1}, is the reference's function of the launched arguments. -/
theorem kernel_value (c : Dev nD)
    (hl : ∀ i, m ((c.tc : Thread nD τ).loc main_arg1) i = 0#32 ∨ m ((c.tc : Thread nD τ).loc main_arg1) i = 1#32) :
    VF m c (Proc.devRef .tc main_v21)
      = Cert.RefProgram.result (F := Ideal) (m ((c.tc : Thread nD τ).loc main_arg0)) (m ((c.tc : Thread nD τ).loc main_arg1)) := by
  rw [Cert.RefSide.ref_result]
  have hout : ∀ b : Fin 32, (VR m c (Proc.devRef .tc main_v1) : S32x1.Idx → EReal) (ix2 b 0)
      = Cert.Spec.pairSum (V m c main_arg0) (V m c main_v0) b := fun b => by
    rw [VR_out]; exact Cert.KernelIdeal.ValueLeg.out_eq m c b
  refine (Cert.KernelIdeal.TailRead.tail_result_spec (VR m c) _ hout).trans ?_
  rw [VR_of_ne m c main_v0 (by decide)]
  show Cert.Spec.tail _ _ _ _ (fun i => Cert.Spec.pairSum (V m c main_arg0) (V m c main_v0) (i 0))
      (fun i => Cert.Spec.nPairs (V m c main_v0) (i 0)) = _
  rw [scores_eq, labels_eq]
  have hrs : (fun i : S32.Idx => Cert.Spec.pairSum (m ((c.tc : Thread nD τ).loc main_arg0))
        (fun i => FloatOps.sitofp (F := Ideal) .f32 (m ((c.tc : Thread nD τ).loc main_arg1) i)) (i 0))
      = Cert.RefSide.rsR (m ((c.tc : Thread nD τ).loc main_arg0)) (m ((c.tc : Thread nD τ).loc main_arg1)) := by
    funext i; rw [eq_ix1 i]; exact (Cert.RefSide.ref_rowSum _ _ hl _).symm
  have hnp : (fun i : S32.Idx => Cert.Spec.nPairs
        (fun i => FloatOps.sitofp (F := Ideal) .f32 (m ((c.tc : Thread nD τ).loc main_arg1) i)) (i 0))
      = Cert.RefSide.npR (m ((c.tc : Thread nD τ).loc main_arg1)) := by
    funext i; rw [eq_ix1 i]; exact (Cert.RefSide.ref_nPairs _ hl _).symm
  exact congr (congrArg (Cert.Spec.tail _ _ _ _) hrs) hnp

end Value

theorem algebraic : Cert.algebraic_KernelIdeal_ReferenceIdeal := by
  intro m ρ m' ρ' hpre hagree
  refine ⟨fun c => Cert.RefProgram.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Hand.run_result (F := Ideal) m ρ)
    exact kernel_value m c (Cert.PreLabels.labels_binary _ _ (hpre c))
  · refine (θ_run Cert.ReferenceIdeal.defs _ _).mono (fun r h c => ⟨(h c).1.trans ?_, (h c).2⟩)
      (Cert.RefProgram.run (F := Ideal) m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
